-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x384x384 : Shape := ⟨4, ![8, 16, 384, 384]⟩
abbrev S8x24x384x384 : Shape := ⟨4, ![8, 24, 384, 384]⟩
abbrev S8 : Shape := ⟨1, ![8]⟩
abbrev S_ : Shape := ⟨0, ![]⟩

class Facts : Prop where
  bcast_S_S8x16x384x384 : S_.BroadcastsInDim S8x16x384x384 (![] : Fin 0 → Fin S8x16x384x384.rank)
  reducesTo_S8x16x384x384_S_d0_1_2_3 : S8x16x384x384.ReducesTo [0, 1, 2, 3] S_
  h_S_ : 0 < S_.numel
  bcast_S_S8x24x384x384 : S_.BroadcastsInDim S8x24x384x384 (![] : Fin 0 → Fin S8x24x384x384.rank)
  reducesTo_S8x24x384x384_S_d0_1_2_3 : S8x24x384x384.ReducesTo [0, 1, 2, 3] S_

variable [Facts]

def fn {F : FTy → Type} [FloatOps F] (main_arg0 : FVec F S8x16x384x384 .f32) (main_arg1 : FVec F S8x24x384x384 .f32) (main_arg2 : IVec S8 32) : IVec S_ 1 :=
  let main_v0 : FVec F S8x16x384x384 .f32 := Host.absf main_arg0
  let main_cst : FVec F S_ .f32 := constant S_ .f32 0x7F800000#32
  let main_v1 : FVec F S8x16x384x384 .f32 := broadcastInDim S8x16x384x384 ![] bcast_S_S8x16x384x384 main_cst
  let main_v2 : IVec S8x16x384x384 1 := cmpf .olt main_v0 main_v1
  let main_c : IVec S_ 1 := constantI S_ 1 1#1
  let main_v3 : IVec S_ 1 := (fun x v => Host.reduce IntOp.andi x v reducesTo_S8x16x384x384_S_d0_1_2_3 h_S_) main_v2 main_c
  let main_v4 : FVec F S8x24x384x384 .f32 := Host.absf main_arg1
  let main_cst_0 : FVec F S_ .f32 := constant S_ .f32 0x7F800000#32
  let main_v5 : FVec F S8x24x384x384 .f32 := broadcastInDim S8x24x384x384 ![] bcast_S_S8x24x384x384 main_cst_0
  let main_v6 : IVec S8x24x384x384 1 := cmpf .olt main_v4 main_v5
  let main_c_1 : IVec S_ 1 := constantI S_ 1 1#1
  let main_v7 : IVec S_ 1 := (fun x v => Host.reduce IntOp.andi x v reducesTo_S8x24x384x384_S_d0_1_2_3 h_S_) main_v6 main_c_1
  let main_v8 : IVec S_ 1 := andi main_v3 main_v7
  main_v8
-- ==== Kernel.lean ====
abbrev S8x16x384x384 : Shape := ⟨4, ![8, 16, 384, 384]⟩
abbrev S8x24x384x384 : Shape := ⟨4, ![8, 24, 384, 384]⟩
abbrev S8 : Shape := ⟨1, ![8]⟩
abbrev S8x16x147456 : Shape := ⟨3, ![8, 16, 147456]⟩
abbrev S8x24x147456 : Shape := ⟨3, ![8, 24, 147456]⟩
abbrev S24 : Shape := ⟨1, ![24]⟩
abbrev S1x24 : Shape := ⟨2, ![1, 24]⟩
abbrev S8x1 : Shape := ⟨2, ![8, 1]⟩
abbrev S8x24 : Shape := ⟨2, ![8, 24]⟩
abbrev S8x16x24 : Shape := ⟨3, ![8, 16, 24]⟩
abbrev S8x1x24 : Shape := ⟨3, ![8, 1, 24]⟩
abbrev S1x16x24576 : Shape := ⟨3, ![1, 16, 24576]⟩
abbrev S1x24x24576 : Shape := ⟨3, ![1, 24, 24576]⟩
abbrev S1x16x24 : Shape := ⟨3, ![1, 16, 24]⟩
abbrev S1x1x24 : Shape := ⟨3, ![1, 1, 24]⟩
abbrev S16x24576 : Shape := ⟨2, ![16, 24576]⟩
abbrev S24x24576 : Shape := ⟨2, ![24, 24576]⟩
abbrev S16x24 : Shape := ⟨2, ![16, 24]⟩
abbrev S_ : Shape := ⟨0, ![]⟩
abbrev S24576 : Shape := ⟨1, ![24576]⟩
abbrev S1x24576 : Shape := ⟨2, ![1, 24576]⟩
abbrev S24x1 : Shape := ⟨2, ![24, 1]⟩
abbrev S8x24x24 : Shape := ⟨3, ![8, 24, 24]⟩
abbrev S8x24x1 : Shape := ⟨3, ![8, 24, 1]⟩
abbrev S24x24 : Shape := ⟨2, ![24, 24]⟩
abbrev S1x24x24 : Shape := ⟨3, ![1, 24, 24]⟩

abbrev nBuf : Space → Nat
  | .hbm => 148
  | .vmem => 18
  | .smem => 0
  | _ => 0

abbrev hbmTy0_0 (i : Nat) : BufTy := match i % 128 with
  | 0 => ⟨S8x16x384x384, .f32⟩
  | 1 => ⟨S8x24x384x384, .f32⟩
  | 2 => ⟨S8, .i32⟩
  | 3 => ⟨S8x16x147456, .f32⟩
  | 4 => ⟨S8x24x147456, .f32⟩
  | 5 => ⟨S8, .f32⟩
  | 6 => ⟨S24, .i32⟩
  | 7 => ⟨S1x24, .i32⟩
  | 8 => ⟨S8x1, .i32⟩
  | 9 => ⟨S8x24, .i32⟩
  | 10 => ⟨S8x24, .i32⟩
  | 11 => ⟨S8x24, .i1⟩
  | 12 => ⟨S8x24, .f32⟩
  | 13 => ⟨S8x16x24, .f32⟩
  | 14 => ⟨S8x1x24, .f32⟩
  | 15 => ⟨S8x24, .f32⟩
  | 16 => ⟨S8x1x24, .f32⟩
  | 17 => ⟨S_, .f32⟩
  | 18 => ⟨S8x1x24, .f32⟩
  | 19 => ⟨S8x1x24, .f32⟩
  | 20 => ⟨S8x16x24, .f32⟩
  | 21 => ⟨S8x16x24, .f32⟩
  | 22 => ⟨S8x1x24, .f32⟩
  | 23 => ⟨S8x16x24, .f32⟩
  | 24 => ⟨S8x16x24, .f32⟩
  | 25 => ⟨S8x16x24, .f32⟩
  | 26 => ⟨S_, .f32⟩
  | 27 => ⟨S8x24, .f32⟩
  | 28 => ⟨S8x1x24, .f32⟩
  | 29 => ⟨S8x1x24, .f32⟩
  | 30 => ⟨S8x24, .f32⟩
  | 31 => ⟨S_, .f32⟩
  | 32 => ⟨S8x24, .f32⟩
  | 33 => ⟨S8x24, .f32⟩
  | 34 => ⟨S8x24, .f32⟩
  | 35 => ⟨S8x24, .f32⟩
  | 36 => ⟨S_, .f32⟩
  | 37 => ⟨S8, .f32⟩
  | 38 => ⟨S_, .f32⟩
  | 39 => ⟨S8, .f32⟩
  | 40 => ⟨S8, .f32⟩
  | 41 => ⟨S8, .f32⟩
  | 42 => ⟨S_, .f32⟩
  | 43 => ⟨S8, .f32⟩
  | 44 => ⟨S8, .i1⟩
  | 45 => ⟨S8, .f32⟩
  | 46 => ⟨S8, .f32⟩
  | 47 => ⟨S_, .f32⟩
  | 48 => ⟨S_, .f32⟩
  | 49 => ⟨S_, .f32⟩
  | 50 => ⟨S_, .f32⟩
  | 51 => ⟨S8x24x24, .f32⟩
  | 52 => ⟨S8x24x1, .f32⟩
  | 53 => ⟨S_, .f32⟩
  | 54 => ⟨S8x24x24, .f32⟩
  | 55 => ⟨S8x24x24, .f32⟩
  | 56 => ⟨S8x24x24, .f32⟩
  | 57 => ⟨S8x24x24, .f32⟩
  | 58 => ⟨S8x1x24, .f32⟩
  | 59 => ⟨S8x24x24, .f32⟩
  | 60 => ⟨S8x24x24, .f32⟩
  | 61 => ⟨S_, .f32⟩
  | 62 => ⟨S8x24x24, .f32⟩
  | 63 => ⟨S8x24x24, .f32⟩
  | 64 => ⟨S_, .f32⟩
  | 65 => ⟨S8x24x24, .f32⟩
  | 66 => ⟨S8x24x24, .i1⟩
  | 67 => ⟨S_, .f32⟩
  | 68 => ⟨S_, .f32⟩
  | 69 => ⟨S8x24x24, .f32⟩
  | 70 => ⟨S8x24x24, .f32⟩
  | 71 => ⟨S8x24x24, .f32⟩
  | 72 => ⟨S8x24x24, .f32⟩
  | 73 => ⟨S8x24x24, .f32⟩
  | 74 => ⟨S24x24, .i32⟩
  | 75 => ⟨S24x24, .i32⟩
  | 76 => ⟨S_, .i32⟩
  | 77 => ⟨S24x24, .i32⟩
  | 78 => ⟨S24x24, .i32⟩
  | 79 => ⟨S24x24, .i1⟩
  | 80 => ⟨S24x24, .f32⟩
  | 81 => ⟨S_, .f32⟩
  | 82 => ⟨S24x24, .f32⟩
  | 83 => ⟨S24x24, .f32⟩
  | 84 => ⟨S8x24x1, .f32⟩
  | 85 => ⟨S8x1x24, .f32⟩
  | 86 => ⟨S8x24x24, .f32⟩
  | 87 => ⟨S8x24x24, .f32⟩
  | 88 => ⟨S8x24x24, .f32⟩
  | 89 => ⟨S1x24x24, .f32⟩
  | 90 => ⟨S8x24x24, .f32⟩
  | 91 => ⟨S8x24x24, .f32⟩
  | 92 => ⟨S_, .f32⟩
  | 93 => ⟨S8x24x24, .f32⟩
  | 94 => ⟨S8x24x24, .f32⟩
  | 95 => ⟨S_, .f32⟩
  | 96 => ⟨S8x24x24, .f32⟩
  | 97 => ⟨S8x24x24, .f32⟩
  | 98 => ⟨S8x24x24, .f32⟩
  | 99 => ⟨S8x24x24, .f32⟩
  | 100 => ⟨S_, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S_, .f32⟩
  | 110 => ⟨S8, .f32⟩
  | 111 => ⟨S8, .f32⟩
  | 112 => ⟨S8, .f32⟩
  | 113 => ⟨S_, .f32⟩
  | 114 => ⟨S8, .f32⟩
  | 115 => ⟨S8, .i1⟩
  | 116 => ⟨S8, .f32⟩
  | 117 => ⟨S8, .f32⟩
  | 118 => ⟨S_, .f32⟩
  | 119 => ⟨S_, .f32⟩
  | 120 => ⟨S_, .f32⟩
  | 121 => ⟨S_, .f32⟩
  | 122 => ⟨S_, .f32⟩
  | 123 => ⟨S8x24, .f32⟩
  | 124 => ⟨S8x24, .i1⟩
  | 125 => ⟨S_, .f32⟩
  | 126 => ⟨S_, .f32⟩
  | 127 => ⟨S8x24, .f32⟩
  | _ => ⟨S8x16x384x384, .f32⟩

abbrev hbmTy0_1 (i : Nat) : BufTy := match i % 128 with
  | 0 => ⟨S8x24, .f32⟩
  | 1 => ⟨S8x24, .f32⟩
  | 2 => ⟨S8x24, .f32⟩
  | 3 => ⟨S8x24, .f32⟩
  | 4 => ⟨S8x24, .f32⟩
  | 5 => ⟨S_, .f32⟩
  | 6 => ⟨S8, .f32⟩
  | 7 => ⟨S8, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S8x16x384x384, .f32⟩

abbrev hbmTy (i : Nat) : BufTy := match i / 128 with
  | 0 => hbmTy0_0 i
  | 1 => hbmTy0_1 i
  | _ => ⟨S8x16x384x384, .f32⟩

abbrev bufTy : (tb : Table) → Fin (tcTables nBuf tb) → BufTy
  | .hbm, ⟨i, _⟩ => hbmTy i
  | .local _ .vmem, ⟨0, _⟩ => ⟨S1x16x24576, .f32⟩
  | .local _ .vmem, ⟨1, _⟩ => ⟨S1x16x24576, .f32⟩
  | .local _ .vmem, ⟨2, _⟩ => ⟨S1x24x24576, .f32⟩
  | .local _ .vmem, ⟨3, _⟩ => ⟨S1x24x24576, .f32⟩
  | .local _ .vmem, ⟨4, _⟩ => ⟨S1x16x24, .f32⟩
  | .local _ .vmem, ⟨5, _⟩ => ⟨S1x16x24, .f32⟩
  | .local _ .vmem, ⟨6, _⟩ => ⟨S1x1x24, .f32⟩
  | .local _ .vmem, ⟨7, _⟩ => ⟨S1x1x24, .f32⟩
  | .local _ .vmem, ⟨8, _⟩ => ⟨S1x16x24576, .f32⟩
  | .local _ .vmem, ⟨9, _⟩ => ⟨S1x16x24576, .f32⟩
  | .local _ .vmem, ⟨10, _⟩ => ⟨S1x24x24576, .f32⟩
  | .local _ .vmem, ⟨11, _⟩ => ⟨S1x24x24576, .f32⟩
  | .local _ .vmem, ⟨12, _⟩ => ⟨S1x16x24, .f32⟩
  | .local _ .vmem, ⟨13, _⟩ => ⟨S1x16x24, .f32⟩
  | .local _ .vmem, ⟨14, _⟩ => ⟨S1x1x24, .f32⟩
  | .local _ .vmem, ⟨15, _⟩ => ⟨S1x1x24, .f32⟩
  | .local _ .vmem, ⟨16, _⟩ => ⟨S1x1x24, .f32⟩
  | .local _ .vmem, ⟨17, _⟩ => ⟨S1x1x24, .f32⟩
  | _, _ => ⟨S8x16x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_cst_15 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_cst_20 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_call1_v0 : Ref sig .tc := ⟨.hbm, 126, rfl⟩
abbrev main_call1_v1 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_cst_25 : Ref sig .tc := ⟨.hbm, 138, rfl⟩
abbrev main_v103 : Ref sig .tc := ⟨.hbm, 139, rfl⟩
abbrev main_cst_26 : Ref sig .tc := ⟨.hbm, 140, rfl⟩
abbrev main_v104 : Ref sig .tc := ⟨.hbm, 141, rfl⟩
abbrev main_cst_27 : Ref sig .tc := ⟨.hbm, 142, rfl⟩
abbrev main_v105 : Ref sig .tc := ⟨.hbm, 143, rfl⟩
abbrev main_v106 : Ref sig .tc := ⟨.hbm, 144, rfl⟩
abbrev main_cst_28 : Ref sig .tc := ⟨.hbm, 145, rfl⟩
abbrev main_v107 : Ref sig .tc := ⟨.hbm, 146, rfl⟩
abbrev main_v108 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x24576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x24576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x24x24576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S8x16x384x384_S8x16x147456 : S8x16x384x384.ShapeCasts S8x16x147456
  shapeCasts_S8x24x384x384_S8x24x147456 : S8x24x384x384.ShapeCasts S8x24x147456
  bcast_S24_S1x24_1 : S24.BroadcastsInDim S1x24 (![1] : Fin 1 → Fin S1x24.rank)
  bcast_S8_S8x1_0 : S8.BroadcastsInDim S8x1 (![0] : Fin 1 → Fin S8x1.rank)
  bcast_S1x24_S8x24_0_1 : S1x24.BroadcastsInDim S8x24 (![0, 1] : Fin 2 → Fin S8x24.rank)
  bcast_S8x1_S8x24_0_1 : S8x1.BroadcastsInDim S8x24 (![0, 1] : Fin 2 → Fin S8x24.rank)
  inb_S1x16x24_S1x16x24_0_0_0 : ∀ a, (![0, 0, 0] : Fin 3 → Nat) a + S1x16x24.size a ≤ S1x16x24.size a
  h_S1x16x24 : 0 < S1x16x24.numel
  inb_S1x1x24_S1x1x24_0_0_0 : ∀ a, (![0, 0, 0] : Fin 3 → Nat) a + S1x1x24.size a ≤ S1x1x24.size a
  h_S1x1x24 : 0 < S1x1x24.numel
  inb_S1x16x24576_S1x16x24576_0_0_0 : ∀ a, (![0, 0, 0] : Fin 3 → Nat) a + S1x16x24576.size a ≤ S1x16x24576.size a
  h_S1x16x24576 : 0 < S1x16x24576.numel
  shapeCasts_S1x16x24576_S16x24576 : S1x16x24576.ShapeCasts S16x24576
  bitsLt_bf16_f32 : FTy.bits .bf16 < FTy.bits .f32
  inb_S1x24x24576_S1x24x24576_0_0_0 : ∀ a, (![0, 0, 0] : Fin 3 → Nat) a + S1x24x24576.size a ≤ S1x24x24576.size a
  h_S1x24x24576 : 0 < S1x24x24576.numel
  shapeCasts_S1x24x24576_S24x24576 : S1x24x24576.ShapeCasts S24x24576
  shapeCasts_S1x16x24_S16x24 : S1x16x24.ShapeCasts S16x24
  shapeCasts_S16x24_S1x16x24 : S16x24.ShapeCasts S1x16x24
  shapeCasts_S1x1x24_S24 : S1x1x24.ShapeCasts S24
  reduces_S24x24576_S24 : S24x24576.Reduces [1] S24
  shapeCasts_S24_S1x1x24 : S24.ShapeCasts S1x1x24
  shapeCasts_S8x1x24_S8x24 : S8x1x24.ShapeCasts S8x24
  bcast_S8x24_S8x1x24_0_2 : S8x24.BroadcastsInDim S8x1x24 (![0, 2] : Fin 2 → Fin S8x1x24.rank)
  bcast_S_S8x1x24 : S_.BroadcastsInDim S8x1x24 (![] : Fin 0 → Fin S8x1x24.rank)
  bcast_S8x1x24_S8x16x24_0_1_2 : S8x1x24.BroadcastsInDim S8x16x24 (![0, 1, 2] : Fin 3 → Fin S8x16x24.rank)
  reducesTo_S8x16x24_S8x24_d1 : S8x16x24.ReducesTo [1] S8x24
  h_S_ : 0 < S_.numel
  reduces_S16x24576_S24576 : S16x24576.Reduces [0] S24576
  shapeCasts_S24576_S1x24576 : S24576.ShapeCasts S1x24576
  broadcasts_S1x24576_S24x24576 : S1x24576.Broadcasts S24x24576
  shapeCasts_S24_S24x1 : S24.ShapeCasts S24x1
  broadcasts_S24x1_S24x24576 : S24x1.Broadcasts S24x24576
  natLt_1_32 : 1 < 32
  bcast_S_S8x24 : S_.BroadcastsInDim S8x24 (![] : Fin 0 → Fin S8x24.rank)
  reducesTo_S8x24_S8_d1 : S8x24.ReducesTo [1] S8
  bcast_S_S8 : S_.BroadcastsInDim S8 (![] : Fin 0 → Fin S8.rank)
  reducesTo_S8_S_d0 : S8.ReducesTo [0] S_
  bcast_S8x24_S8x24x1_0_1 : S8x24.BroadcastsInDim S8x24x1 (![0, 1] : Fin 2 → Fin S8x24x1.rank)
  bcast_S_S8x24x24 : S_.BroadcastsInDim S8x24x24 (![] : Fin 0 → Fin S8x24x24.rank)
  bcast_S8x24x1_S8x24x24_0_1_2 : S8x24x1.BroadcastsInDim S8x24x24 (![0, 1, 2] : Fin 3 → Fin S8x24x24.rank)
  bcast_S8x1x24_S8x24x24_0_1_2 : S8x1x24.BroadcastsInDim S8x24x24 (![0, 1, 2] : Fin 3 → Fin S8x24x24.rank)
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S8x24x24_0_1_2 : S1x24x24.BroadcastsInDim S8x24x24 (![0, 1, 2] : Fin 3 → Fin S8x24x24.rank)
  reducesTo_S8x24x24_S8_d1_2 : S8x24x24.ReducesTo [1, 2] S8
  dot_S16x24576_S24x24576_S16x24_1_1_0_0_n_n_wf : DotDims.WF S16x24576 S24x24576 S16x24 [1] [1] [0] [0] [] []
  dot_S16x24_S16x24576_S24x24576_0_0_1_1_n_n_wf : DotDims.WF S16x24 S16x24576 S24x24576 [0] [0] [1] [1] [] []
  dot_S8x16x24_S8x16x24_S8x24x24_1_1_2_2_0_0_wf : DotDims.WF S8x16x24 S8x16x24 S8x24x24 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x24576.size a ≤ S8x16x147456.size a
  hwx0_0 : ∀ i : grid0.Coords, EltTy.bits .f32 = 32 ∨ (Rect.block (s := S8x16x147456) S1x16x24576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x24576.size a ≤ S8x24x147456.size a
  hwx0_1 : ∀ i : grid0.Coords, EltTy.bits .f32 = 32 ∨ (Rect.block (s := S8x24x147456) S1x24x24576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x24.size a ≤ S8x16x24.size a
  hwx0_2 : ∀ i : grid0.Coords, EltTy.bits .f32 = 32 ∨ (Rect.block (s := S8x16x24) S1x16x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24.size a ≤ S8x1x24.size a
  hwx0_3 : ∀ i : grid0.Coords, EltTy.bits .f32 = 32 ∨ (Rect.block (s := S8x1x24) S1x1x24.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x24576.size a ≤ S8x16x147456.size a
  hwx1_0 : ∀ i : grid1.Coords, EltTy.bits .f32 = 32 ∨ (Rect.block (s := S8x16x147456) S1x16x24576.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x24x24576.size a ≤ S8x24x147456.size a
  hwx1_1 : ∀ i : grid1.Coords, EltTy.bits .f32 = 32 ∨ (Rect.block (s := S8x24x147456) S1x24x24576.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x24.size a ≤ S8x16x24.size a
  hwx1_2 : ∀ i : grid1.Coords, EltTy.bits .f32 = 32 ∨ (Rect.block (s := S8x16x24) S1x16x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x24.size a ≤ S8x1x24.size a
  hwx1_3 : ∀ i : grid1.Coords, EltTy.bits .f32 = 32 ∨ (Rect.block (s := S8x1x24) S1x1x24.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x24.size a ≤ S8x1x24.size a
  hwx1_4 : ∀ i : grid1.Coords, EltTy.bits .f32 = 32 ∨ (Rect.block (s := S8x1x24) S1x1x24.size (cc1_transform_4 i) (hinb1_4 i)).WholeWords (EltTy.packing .f32)

variable [Facts₀]

def dot_S16x24576_S24x24576_S16x24_1_1_0_0_n_n : DotDims S16x24576 S24x24576 S16x24 where
  lhsContracting := [1]
  rhsContracting := [1]
  lhsNonContracting := [0]
  rhsNonContracting := [0]
  lhsBatch := []
  rhsBatch := []
  wf := dot_S16x24576_S24x24576_S16x24_1_1_0_0_n_n_wf
def dot_S16x24_S16x24576_S24x24576_0_0_1_1_n_n : DotDims S16x24 S16x24576 S24x24576 where
  lhsContracting := [0]
  rhsContracting := [0]
  lhsNonContracting := [1]
  rhsNonContracting := [1]
  lhsBatch := []
  rhsBatch := []
  wf := dot_S16x24_S16x24576_S24x24576_0_0_1_1_n_n_wf
def dot_S8x16x24_S8x16x24_S8x24x24_1_1_2_2_0_0 : DotDims S8x16x24 S8x16x24 S8x24x24 where
  lhsContracting := [1]
  rhsContracting := [1]
  lhsNonContracting := [2]
  rhsNonContracting := [2]
  lhsBatch := [0]
  rhsBatch := [0]
  wf := dot_S8x16x24_S8x16x24_S8x24x24_1_1_2_2_0_0_wf

abbrev win0_0 : Pipeline.Window sig grid0 :=
  Pipeline.Window.ofSpec (Memref.whole main_v0) S1x16x24576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x24x24576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S1x16x24.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x1x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x16x24576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x24x24576.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x16x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1x24.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1x24.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x16x384x384 : Shape := ⟨4, ![8, 16, 384, 384]⟩
abbrev S8x24x384x384 : Shape := ⟨4, ![8, 24, 384, 384]⟩
abbrev S8 : Shape := ⟨1, ![8]⟩
abbrev S8x16x147456 : Shape := ⟨3, ![8, 16, 147456]⟩
abbrev S8x24x147456 : Shape := ⟨3, ![8, 24, 147456]⟩
abbrev S24 : Shape := ⟨1, ![24]⟩
abbrev S1x24 : Shape := ⟨2, ![1, 24]⟩
abbrev S8x1 : Shape := ⟨2, ![8, 1]⟩
abbrev S8x24 : Shape := ⟨2, ![8, 24]⟩
abbrev S_ : Shape := ⟨0, ![]⟩
abbrev S8x16x24 : Shape := ⟨3, ![8, 16, 24]⟩
abbrev S8x1x24 : Shape := ⟨3, ![8, 1, 24]⟩
abbrev S8x147456 : Shape := ⟨2, ![8, 147456]⟩
abbrev S8x1x147456 : Shape := ⟨3, ![8, 1, 147456]⟩
abbrev S8x24x1 : Shape := ⟨3, ![8, 24, 1]⟩
abbrev S8x24x24 : Shape := ⟨3, ![8, 24, 24]⟩
abbrev S24x24 : Shape := ⟨2, ![24, 24]⟩
abbrev S1x24x24 : Shape := ⟨3, ![1, 24, 24]⟩

abbrev nBuf : Space → Nat
  | .hbm => 181
  | .vmem => 0
  | .smem => 0
  | _ => 0

abbrev hbmTy0_0 (i : Nat) : BufTy := match i % 128 with
  | 0 => ⟨S8x16x384x384, .f32⟩
  | 1 => ⟨S8x24x384x384, .f32⟩
  | 2 => ⟨S8, .i32⟩
  | 3 => ⟨S8x16x147456, .f32⟩
  | 4 => ⟨S8x24x147456, .f32⟩
  | 5 => ⟨S8, .f32⟩
  | 6 => ⟨S24, .i32⟩
  | 7 => ⟨S1x24, .i32⟩
  | 8 => ⟨S8x1, .i32⟩
  | 9 => ⟨S8x24, .i32⟩
  | 10 => ⟨S8x24, .i32⟩
  | 11 => ⟨S8x24, .i1⟩
  | 12 => ⟨S8x24, .f32⟩
  | 13 => ⟨S_, .f32⟩
  | 14 => ⟨S8x24, .f32⟩
  | 15 => ⟨S8x16x24, .f32⟩
  | 16 => ⟨S8x1x24, .f32⟩
  | 17 => ⟨S_, .f32⟩
  | 18 => ⟨S8x1x24, .f32⟩
  | 19 => ⟨S8x1x24, .f32⟩
  | 20 => ⟨S8x16x24, .f32⟩
  | 21 => ⟨S8x16x24, .f32⟩
  | 22 => ⟨S8x1x24, .f32⟩
  | 23 => ⟨S8x16x24, .f32⟩
  | 24 => ⟨S8x16x24, .f32⟩
  | 25 => ⟨S8x16x147456, .f32⟩
  | 26 => ⟨S_, .f32⟩
  | 27 => ⟨S8x147456, .f32⟩
  | 28 => ⟨S8x16x24, .f32⟩
  | 29 => ⟨S_, .f32⟩
  | 30 => ⟨S8x24, .f32⟩
  | 31 => ⟨S8x24x147456, .f32⟩
  | 32 => ⟨S8x1x147456, .f32⟩
  | 33 => ⟨S_, .f32⟩
  | 34 => ⟨S8x24x147456, .f32⟩
  | 35 => ⟨S8x24x147456, .f32⟩
  | 36 => ⟨S8x24x147456, .f32⟩
  | 37 => ⟨S8x24x147456, .f32⟩
  | 38 => ⟨S8x24x1, .f32⟩
  | 39 => ⟨S8x24x147456, .f32⟩
  | 40 => ⟨S8x24x147456, .f32⟩
  | 41 => ⟨S_, .f32⟩
  | 42 => ⟨S8x24x147456, .f32⟩
  | 43 => ⟨S8x24x147456, .f32⟩
  | 44 => ⟨S_, .f32⟩
  | 45 => ⟨S8x24x147456, .f32⟩
  | 46 => ⟨S8x24x147456, .i1⟩
  | 47 => ⟨S_, .f32⟩
  | 48 => ⟨S_, .f32⟩
  | 49 => ⟨S8x24x147456, .f32⟩
  | 50 => ⟨S8x24x147456, .f32⟩
  | 51 => ⟨S8x24x147456, .f32⟩
  | 52 => ⟨S8x24x147456, .f32⟩
  | 53 => ⟨S8x24x147456, .f32⟩
  | 54 => ⟨S_, .f32⟩
  | 55 => ⟨S8x24x147456, .f32⟩
  | 56 => ⟨S8x24x147456, .f32⟩
  | 57 => ⟨S_, .f32⟩
  | 58 => ⟨S8x24x147456, .f32⟩
  | 59 => ⟨S8x24x147456, .f32⟩
  | 60 => ⟨S8x24x147456, .f32⟩
  | 61 => ⟨S8x24x147456, .f32⟩
  | 62 => ⟨S_, .f32⟩
  | 63 => ⟨S8x24, .f32⟩
  | 64 => ⟨S_, .f32⟩
  | 65 => ⟨S8x24, .f32⟩
  | 66 => ⟨S8x24, .f32⟩
  | 67 => ⟨S8x24, .f32⟩
  | 68 => ⟨S8x24, .f32⟩
  | 69 => ⟨S_, .f32⟩
  | 70 => ⟨S8, .f32⟩
  | 71 => ⟨S_, .f32⟩
  | 72 => ⟨S8, .f32⟩
  | 73 => ⟨S8, .f32⟩
  | 74 => ⟨S8, .f32⟩
  | 75 => ⟨S_, .f32⟩
  | 76 => ⟨S8, .f32⟩
  | 77 => ⟨S8, .i1⟩
  | 78 => ⟨S8, .f32⟩
  | 79 => ⟨S8, .f32⟩
  | 80 => ⟨S_, .f32⟩
  | 81 => ⟨S_, .f32⟩
  | 82 => ⟨S_, .f32⟩
  | 83 => ⟨S_, .f32⟩
  | 84 => ⟨S8x24x24, .f32⟩
  | 85 => ⟨S8x24x1, .f32⟩
  | 86 => ⟨S_, .f32⟩
  | 87 => ⟨S8x24x24, .f32⟩
  | 88 => ⟨S8x24x24, .f32⟩
  | 89 => ⟨S8x24x24, .f32⟩
  | 90 => ⟨S8x24x24, .f32⟩
  | 91 => ⟨S8x1x24, .f32⟩
  | 92 => ⟨S8x24x24, .f32⟩
  | 93 => ⟨S8x24x24, .f32⟩
  | 94 => ⟨S_, .f32⟩
  | 95 => ⟨S8x24x24, .f32⟩
  | 96 => ⟨S8x24x24, .f32⟩
  | 97 => ⟨S_, .f32⟩
  | 98 => ⟨S8x24x24, .f32⟩
  | 99 => ⟨S8x24x24, .i1⟩
  | 100 => ⟨S_, .f32⟩
  | 101 => ⟨S_, .f32⟩
  | 102 => ⟨S8x24x24, .f32⟩
  | 103 => ⟨S8x24x24, .f32⟩
  | 104 => ⟨S8x24x24, .f32⟩
  | 105 => ⟨S8x24x24, .f32⟩
  | 106 => ⟨S8x24x24, .f32⟩
  | 107 => ⟨S24x24, .i32⟩
  | 108 => ⟨S24x24, .i32⟩
  | 109 => ⟨S_, .i32⟩
  | 110 => ⟨S24x24, .i32⟩
  | 111 => ⟨S24x24, .i32⟩
  | 112 => ⟨S24x24, .i1⟩
  | 113 => ⟨S24x24, .f32⟩
  | 114 => ⟨S_, .f32⟩
  | 115 => ⟨S24x24, .f32⟩
  | 116 => ⟨S24x24, .f32⟩
  | 117 => ⟨S8x24x1, .f32⟩
  | 118 => ⟨S8x1x24, .f32⟩
  | 119 => ⟨S8x24x24, .f32⟩
  | 120 => ⟨S8x24x24, .f32⟩
  | 121 => ⟨S8x24x24, .f32⟩
  | 122 => ⟨S1x24x24, .f32⟩
  | 123 => ⟨S8x24x24, .f32⟩
  | 124 => ⟨S8x24x24, .f32⟩
  | 125 => ⟨S_, .f32⟩
  | 126 => ⟨S8x24x24, .f32⟩
  | 127 => ⟨S8x24x24, .f32⟩
  | _ => ⟨S8x16x384x384, .f32⟩

abbrev hbmTy0_1 (i : Nat) : BufTy := match i % 128 with
  | 0 => ⟨S_, .f32⟩
  | 1 => ⟨S8x24x24, .f32⟩
  | 2 => ⟨S8x24x24, .f32⟩
  | 3 => ⟨S8x24x24, .f32⟩
  | 4 => ⟨S8x24x24, .f32⟩
  | 5 => ⟨S_, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .i1⟩
  | 21 => ⟨S8, .f32⟩
  | 22 => ⟨S8, .f32⟩
  | 23 => ⟨S_, .f32⟩
  | 24 => ⟨S_, .f32⟩
  | 25 => ⟨S_, .f32⟩
  | 26 => ⟨S_, .f32⟩
  | 27 => ⟨S_, .f32⟩
  | 28 => ⟨S8x24, .f32⟩
  | 29 => ⟨S8x24, .i1⟩
  | 30 => ⟨S_, .f32⟩
  | 31 => ⟨S_, .f32⟩
  | 32 => ⟨S8x24, .f32⟩
  | 33 => ⟨S8x24, .f32⟩
  | 34 => ⟨S8x24, .f32⟩
  | 35 => ⟨S8x24, .f32⟩
  | 36 => ⟨S8x24, .f32⟩
  | 37 => ⟨S8x24, .f32⟩
  | 38 => ⟨S_, .f32⟩
  | 39 => ⟨S8, .f32⟩
  | 40 => ⟨S8, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S8x16x384x384, .f32⟩

abbrev hbmTy (i : Nat) : BufTy := match i / 128 with
  | 0 => hbmTy0_0 i
  | 1 => hbmTy0_1 i
  | _ => ⟨S8x16x384x384, .f32⟩

abbrev bufTy : (tb : Table) → Fin (tcTables nBuf tb) → BufTy
  | .hbm, ⟨i, _⟩ => hbmTy i
  | _, _ => ⟨S8x16x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_cst_18 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_call1_v0 : Ref sig .tc := ⟨.hbm, 101, rfl⟩
abbrev main_call1_v1 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_21 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_cst_24 : Ref sig .tc := ⟨.hbm, 135, rfl⟩
abbrev main_v102 : Ref sig .tc := ⟨.hbm, 136, rfl⟩
abbrev main_v103 : Ref sig .tc := ⟨.hbm, 137, rfl⟩
abbrev main_cst_25 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_26 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_27 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_28 : Ref sig .tc := ⟨.hbm, 151, rfl⟩
abbrev main_v114 : Ref sig .tc := ⟨.hbm, 152, rfl⟩
abbrev main_cst_29 : Ref sig .tc := ⟨.hbm, 153, rfl⟩
abbrev main_v115 : Ref sig .tc := ⟨.hbm, 154, rfl⟩
abbrev main_cst_30 : Ref sig .tc := ⟨.hbm, 155, rfl⟩
abbrev main_v116 : Ref sig .tc := ⟨.hbm, 156, rfl⟩
abbrev main_v117 : Ref sig .tc := ⟨.hbm, 157, rfl⟩
abbrev main_cst_31 : Ref sig .tc := ⟨.hbm, 158, rfl⟩
abbrev main_call2_v0 : Ref sig .tc := ⟨.hbm, 159, rfl⟩
abbrev main_call2_v1 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_32 : Ref sig .tc := ⟨.hbm, 166, rfl⟩
abbrev main_v123 : Ref sig .tc := ⟨.hbm, 167, rfl⟩
abbrev main_v124 : Ref sig .tc := ⟨.hbm, 168, rfl⟩
abbrev main_cst_33 : Ref sig .tc := ⟨.hbm, 169, rfl⟩
abbrev main_v125 : Ref sig .tc := ⟨.hbm, 170, rfl⟩
abbrev main_cst_34 : Ref sig .tc := ⟨.hbm, 171, rfl⟩
abbrev main_v126 : Ref sig .tc := ⟨.hbm, 172, rfl⟩
abbrev main_cst_35 : Ref sig .tc := ⟨.hbm, 173, rfl⟩
abbrev main_v127 : Ref sig .tc := ⟨.hbm, 174, rfl⟩
abbrev main_cst_36 : Ref sig .tc := ⟨.hbm, 175, rfl⟩
abbrev main_v128 : Ref sig .tc := ⟨.hbm, 176, rfl⟩
abbrev main_v129 : Ref sig .tc := ⟨.hbm, 177, rfl⟩
abbrev main_cst_37 : Ref sig .tc := ⟨.hbm, 178, rfl⟩
abbrev main_v130 : Ref sig .tc := ⟨.hbm, 179, rfl⟩
abbrev main_v131 : Ref sig .tc := ⟨.hbm, 180, rfl⟩

abbrev nD : Nat := 1
abbrev τ : Topo := Topo.v7x

variable {F : FTy → Type} [FloatOps F]

class Facts₀ : Prop where
  shapeCasts_S8x16x384x384_S8x16x147456 : S8x16x384x384.ShapeCasts S8x16x147456
  shapeCasts_S8x24x384x384_S8x24x147456 : S8x24x384x384.ShapeCasts S8x24x147456
  bcast_S24_S1x24_1 : S24.BroadcastsInDim S1x24 (![1] : Fin 1 → Fin S1x24.rank)
  bcast_S8_S8x1_0 : S8.BroadcastsInDim S8x1 (![0] : Fin 1 → Fin S8x1.rank)
  bcast_S1x24_S8x24_0_1 : S1x24.BroadcastsInDim S8x24 (![0, 1] : Fin 2 → Fin S8x24.rank)
  bcast_S8x1_S8x24_0_1 : S8x1.BroadcastsInDim S8x24 (![0, 1] : Fin 2 → Fin S8x24.rank)
  reducesTo_S8x24x147456_S8x24_d2 : S8x24x147456.ReducesTo [2] S8x24
  h_S_ : 0 < S_.numel
  bcast_S8x24_S8x1x24_0_2 : S8x24.BroadcastsInDim S8x1x24 (![0, 2] : Fin 2 → Fin S8x1x24.rank)
  bcast_S_S8x1x24 : S_.BroadcastsInDim S8x1x24 (![] : Fin 0 → Fin S8x1x24.rank)
  bcast_S8x1x24_S8x16x24_0_1_2 : S8x1x24.BroadcastsInDim S8x16x24 (![0, 1, 2] : Fin 3 → Fin S8x16x24.rank)
  reducesTo_S8x16x147456_S8x147456_d1 : S8x16x147456.ReducesTo [1] S8x147456
  reducesTo_S8x16x24_S8x24_d1 : S8x16x24.ReducesTo [1] S8x24
  bcast_S8x147456_S8x1x147456_0_2 : S8x147456.BroadcastsInDim S8x1x147456 (![0, 2] : Fin 2 → Fin S8x1x147456.rank)
  bcast_S_S8x24x147456 : S_.BroadcastsInDim S8x24x147456 (![] : Fin 0 → Fin S8x24x147456.rank)
  bcast_S8x1x147456_S8x24x147456_0_1_2 : S8x1x147456.BroadcastsInDim S8x24x147456 (![0, 1, 2] : Fin 3 → Fin S8x24x147456.rank)
  bcast_S8x24_S8x24x1_0_1 : S8x24.BroadcastsInDim S8x24x1 (![0, 1] : Fin 2 → Fin S8x24x1.rank)
  bcast_S8x24x1_S8x24x147456_0_1_2 : S8x24x1.BroadcastsInDim S8x24x147456 (![0, 1, 2] : Fin 3 → Fin S8x24x147456.rank)
  bcast_S_S8x24 : S_.BroadcastsInDim S8x24 (![] : Fin 0 → Fin S8x24.rank)
  reducesTo_S8x24_S8_d1 : S8x24.ReducesTo [1] S8
  bcast_S_S8 : S_.BroadcastsInDim S8 (![] : Fin 0 → Fin S8.rank)
  reducesTo_S8_S_d0 : S8.ReducesTo [0] S_
  bcast_S_S8x24x24 : S_.BroadcastsInDim S8x24x24 (![] : Fin 0 → Fin S8x24x24.rank)
  bcast_S8x24x1_S8x24x24_0_1_2 : S8x24x1.BroadcastsInDim S8x24x24 (![0, 1, 2] : Fin 3 → Fin S8x24x24.rank)
  bcast_S8x1x24_S8x24x24_0_1_2 : S8x1x24.BroadcastsInDim S8x24x24 (![0, 1, 2] : Fin 3 → Fin S8x24x24.rank)
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S8x24x24_0_1_2 : S1x24x24.BroadcastsInDim S8x24x24 (![0, 1, 2] : Fin 3 → Fin S8x24x24.rank)
  reducesTo_S8x24x24_S8_d1_2 : S8x24x24.ReducesTo [1, 2] S8
  dot_S8x16x147456_S8x24x147456_S8x16x24_2_2_1_1_0_0_wf : DotDims.WF S8x16x147456 S8x24x147456 S8x16x24 [2] [2] [1] [1] [0] [0]
  dot_S8x16x24_S8x16x147456_S8x24x147456_1_1_2_2_0_0_wf : DotDims.WF S8x16x24 S8x16x147456 S8x24x147456 [1] [1] [2] [2] [0] [0]
  dot_S8x16x24_S8x16x24_S8x24x24_1_1_2_2_0_0_wf : DotDims.WF S8x16x24 S8x16x24 S8x24x24 [1] [1] [2] [2] [0] [0]

variable [Facts₀]

def dot_S8x16x147456_S8x24x147456_S8x16x24_2_2_1_1_0_0 : DotDims S8x16x147456 S8x24x147456 S8x16x24 where
  lhsContracting := [2]
  rhsContracting := [2]
  lhsNonContracting := [1]
  rhsNonContracting := [1]
  lhsBatch := [0]
  rhsBatch := [0]
  wf := dot_S8x16x147456_S8x24x147456_S8x16x24_2_2_1_1_0_0_wf
def dot_S8x16x24_S8x16x147456_S8x24x147456_1_1_2_2_0_0 : DotDims S8x16x24 S8x16x147456 S8x24x147456 where
  lhsContracting := [1]
  rhsContracting := [1]
  lhsNonContracting := [2]
  rhsNonContracting := [2]
  lhsBatch := [0]
  rhsBatch := [0]
  wf := dot_S8x16x24_S8x16x147456_S8x24x147456_1_1_2_2_0_0_wf
def dot_S8x16x24_S8x16x24_S8x24x24_1_1_2_2_0_0 : DotDims S8x16x24 S8x16x24 S8x24x24 where
  lhsContracting := [1]
  rhsContracting := [1]
  lhsNonContracting := [2]
  rhsNonContracting := [2]
  lhsBatch := [0]
  rhsBatch := [0]
  wf := dot_S8x16x24_S8x16x24_S8x24x24_1_1_2_2_0_0_wf

class Facts : Prop extends Facts₀ where

variable [Facts]
-- ==== Proof.Spec.lean ====
/-
  The quantities both programs compute, as functions of the flattened arrays, over the extended reals.

  With x[b,f,l] the features, t[b,c,l] the cluster masks (b < 8 samples, f < 16 features, c < 24 clusters,
  l < 147456 pixels):
    tsum[b,c]   = Σ_l t[b,c,l]                      (the cluster's mass)
    sums[b,f,c] = Σ_l x[b,f,l] · t[b,c,l]           (the cluster's feature sum)
  and, for cluster means μ[b,f,c] and their squared norms m2[b,c],
    x2[b,l]     = Σ_f x[b,f,l]²
    xm[b,c,l]   = Σ_f μ[b,f,c] · x[b,f,l]
    cvar[b,c]   = Σ_l hingeSq (x2[b,l]) (xm[b,c,l]) (m2[b,c]) (t[b,c,l])
  where hingeSq is the pointwise chain  d2 = max (x2 − 2·xm + m2) 0,  dist = sqrt (d2 if d2 > 0 else 1) · [d2 > 0],
  h = max (dist − 1/2) 0,  result h·h·t.  Every sum is a plain finite sum in the commutative monoid of the extended
  reals, so it does not depend on the order or the grouping in which a program accumulates it.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- The features, flattened: [8, 16, 147456]. -/
abbrev SX : Shape := ⟨3, ![8, 16, 147456]⟩
/-- The cluster masks, flattened: [8, 24, 147456]. -/
abbrev ST : Shape := ⟨3, ![8, 24, 147456]⟩
/-- Per-sample feature × cluster tables: [8, 16, 24]. -/
abbrev SM : Shape := ⟨3, ![8, 16, 24]⟩

/-- The mass of cluster `c` of sample `b`: the sum of its mask over the pixels. -/
def tsum (t : FVec Ideal ST .f32) (b : Fin 8) (c : Fin 24) : EReal :=
  ∑ l : Fin 147456, t (ix3 b c l)

/-- The feature sum of cluster `c` of sample `b`, feature `f`: the mask-weighted sum of the feature over the pixels. -/
def sums (x : FVec Ideal SX .f32) (t : FVec Ideal ST .f32) (b : Fin 8) (f : Fin 16) (c : Fin 24) : EReal :=
  ∑ l : Fin 147456, x (ix3 b f l) * t (ix3 b c l)

/-- The squared norm of pixel `l`'s feature vector. -/
def x2 (x : FVec Ideal SX .f32) (b : Fin 8) (l : Fin 147456) : EReal :=
  ∑ f : Fin 16, x (ix3 b f l) * x (ix3 b f l)

/-- The inner product of cluster `c`'s mean with pixel `l`'s feature vector. -/
def xm (mu : FVec Ideal SM .f32) (x : FVec Ideal SX .f32) (b : Fin 8) (c : Fin 24) (l : Fin 147456) : EReal :=
  ∑ f : Fin 16, mu (ix3 b f c) * x (ix3 b f l)

/-- One pixel's contribution to a cluster's variance term, from the pixel's squared norm `a`, its inner product with
    the mean `p`, the mean's squared norm `q` and the mask value `w`: the squared distance by the quadratic
    expansion clamped at zero, its root taken only where it is positive (elsewhere the root of one, times zero), the
    hinge at one half, squared, weighted by the mask. -/
def hingeSq (a p q w : EReal) : EReal :=
  let d2 : Ideal .f32 := FloatOps.maximumf (F := Ideal) (φ := .f32)
    (FloatOps.addf (FloatOps.subf a (FloatOps.mulf (FloatOps.ofBits (F := Ideal) .f32 0x40000000#32) p)) q)
    (FloatOps.ofBits (F := Ideal) .f32 0x00000000#32)
  let pos : BitVec 1 := FloatOps.cmpf (F := Ideal) (φ := .f32) .ogt d2 (FloatOps.ofBits (F := Ideal) .f32 0x00000000#32)
  let dist : Ideal .f32 := FloatOps.mulf (F := Ideal) (φ := .f32)
    (FloatOps.hostUnary (F := Ideal) (φ := .f32) .sqrt (Scalar.select pos d2 (FloatOps.ofBits (F := Ideal) .f32 0x3F800000#32)))
    (FloatOps.uitofp (F := Ideal) .f32 pos)
  let h : Ideal .f32 := FloatOps.maximumf (F := Ideal) (φ := .f32)
    (FloatOps.subf dist (FloatOps.ofBits (F := Ideal) .f32 0x3F000000#32)) (FloatOps.ofBits (F := Ideal) .f32 0x00000000#32)
  FloatOps.mulf (F := Ideal) (φ := .f32) (FloatOps.mulf h h) w

/-- The variance sum of cluster `c` of sample `b`: the pixels' contributions summed. -/
def cvar (x : FVec Ideal SX .f32) (t : FVec Ideal ST .f32) (mu : FVec Ideal SM .f32) (m2 : Fin 8 → Fin 24 → EReal)
    (b : Fin 8) (c : Fin 24) : EReal :=
  ∑ l : Fin 147456, hingeSq (x2 x b l) (xm mu x b c l) (m2 b c) (t (ix3 b c l))

end Cert.Spec

end
-- ==== Proof.RefStages.lean ====
/-
  The reference's three pixel sums, read at an index.

  With x = %0 the flattened features [8,16,147456], t = %1 the flattened masks [8,24,147456], μ = %19 the cluster
  means [8,16,24] and m2 = %23 their squared norms [8,24]:
    %10[b,c]   = 0 + Σ_l t[b,c,l]                       = tsum t b c
    %11[b,f,c] = Σ_l x[b,f,l] · t[b,c,l]                = sums x t b f c
    %47[b,c]   = 0 + Σ_l %46[b,c,l]                     = cvar x t μ m2 b c
  where %46 at (b,c,l) is the pointwise chain %25 … %46 applied to
    %28[b,c,l] = %21[b,l] = 0 + Σ_f x[b,f,l]·x[b,f,l]   = x2 x b l,
    %24[b,c,l] = Σ_f μ[b,f,c] · x[b,f,l]                = xm μ x b c l,
    %31[b,c,l] = %23[b,c]                               = m2 b c,
    %1[b,c,l]                                           = t[b,c,l],
  and that chain is hingeSq, operation for operation.  Each reduction starts from the zero word, which is the
  extended real 0, so the initial value drops out by zero_add.  Nothing else is used: the sums are the same finite
  sums over the same index sets, term for term.
-/
import proofs.«119188_j64785286693017_1_alg».proof.Proof.RefReadP
import proofs.«119188_j64785286693017_1_alg».proof.Proof.Spec
import Idealize.ShloMosaic.Lib.ValueIdx
import Idealize.ShloMosaic.PureOps.Ideal.Laws

noncomputable section

open scoped BigOperators
open Cert.ReferenceIdeal Cert.ReferenceIdeal.ReadP Idealize.ShloMosaic Idealize.ShloMosaic.ValueIdx

namespace Cert.ReferenceIdeal.RefStages

variable (x0 : (⟨S8x16x384x384, .f32⟩ : BufTy).Contents (Elt Ideal))
  (x1 : (⟨S8x24x384x384, .f32⟩ : BufTy).Contents (Elt Ideal))
  (x2 : (⟨S8, .i32⟩ : BufTy).Contents (Elt Ideal))

/-! ## The index maps of the stages, at explicit coordinates -/

theorem idx10 (b : Fin 8) (c : Fin 24) (k : Fin 147456) : idx_main_v10 (ix2 b c) k = ix3 b c k :=
  funext fun a => Fin.ext (by match a with | ⟨0, _⟩ => rfl | ⟨1, _⟩ => rfl | ⟨2, _⟩ => rfl)

theorem lidx11 (b : Fin 8) (f : Fin 16) (c : Fin 24) (k : Fin 147456) : lidx_main_v11 (ix3 b f c) k = ix3 b f k :=
  funext fun a => Fin.ext (by match a with | ⟨0, _⟩ => rfl | ⟨1, _⟩ => rfl | ⟨2, _⟩ => rfl)

theorem ridx11 (b : Fin 8) (f : Fin 16) (c : Fin 24) (k : Fin 147456) : ridx_main_v11 (ix3 b f c) k = ix3 b c k :=
  funext fun a => Fin.ext (by match a with | ⟨0, _⟩ => rfl | ⟨1, _⟩ => rfl | ⟨2, _⟩ => rfl)

theorem idx21 (b : Fin 8) (l : Fin 147456) (k : Fin 16) : idx_main_v21 (ix2 b l) k = ix3 b k l :=
  funext fun a => Fin.ext (by match a with | ⟨0, _⟩ => rfl | ⟨1, _⟩ => rfl | ⟨2, _⟩ => rfl)

theorem idx28_25 (b : Fin 8) (c : Fin 24) (l : Fin 147456) : idx_main_v25 (idx_main_v28 (ix3 b c l)) = ix2 b l :=
  funext fun a => Fin.ext (by match a with | ⟨0, _⟩ => rfl | ⟨1, _⟩ => rfl)

theorem idx31_30 (b : Fin 8) (c : Fin 24) (l : Fin 147456) : idx_main_v30 (idx_main_v31 (ix3 b c l)) = ix2 b c :=
  funext fun a => Fin.ext (by match a with | ⟨0, _⟩ => rfl | ⟨1, _⟩ => rfl)

theorem lidx24 (b : Fin 8) (c : Fin 24) (l : Fin 147456) (k : Fin 16) : lidx_main_v24 (ix3 b c l) k = ix3 b k c :=
  funext fun a => Fin.ext (by match a with | ⟨0, _⟩ => rfl | ⟨1, _⟩ => rfl | ⟨2, _⟩ => rfl)

theorem ridx24 (b : Fin 8) (c : Fin 24) (l : Fin 147456) (k : Fin 16) : ridx_main_v24 (ix3 b c l) k = ix3 b k l :=
  funext fun a => Fin.ext (by match a with | ⟨0, _⟩ => rfl | ⟨1, _⟩ => rfl | ⟨2, _⟩ => rfl)

theorem idx47 (b : Fin 8) (c : Fin 24) (k : Fin 147456) : idx_main_v47 (ix2 b c) k = ix3 b c k :=
  funext fun a => Fin.ext (by match a with | ⟨0, _⟩ => rfl | ⟨1, _⟩ => rfl | ⟨2, _⟩ => rfl)

/-- The zero word is the extended real 0. -/
theorem zero_word : FloatOps.ofBits (F := Ideal) .f32 0x00000000#32 = (0 : EReal) := Ideal.ofBits_zero_f32

/-! ## %10 and %11 -/

theorem tsum_at (b : Fin 8) (c : Fin 24) :
    val_main_v10 (F := Ideal) x1 (ix2 b c) = Cert.Spec.tsum (val_main_v1 (F := Ideal) x1) b c := by
  rw [val_main_v10_apply, val_main_cst_apply, zero_word, zero_add]
  unfold Cert.Spec.tsum
  simp only [idx10]

theorem sums_at (b : Fin 8) (f : Fin 16) (c : Fin 24) :
    val_main_v11 (F := Ideal) x0 x1 (ix3 b f c)
      = Cert.Spec.sums (val_main_v0 (F := Ideal) x0) (val_main_v1 (F := Ideal) x1) b f c := by
  rw [val_main_v11_apply]
  unfold Cert.Spec.sums
  simp only [lidx11, ridx11]

/-! ## The operands of the pointwise chain -/

/-- %28 at (b,c,l): the pixel's squared norm, whatever the cluster. -/
theorem x2_at (b : Fin 8) (c : Fin 24) (l : Fin 147456) :
    val_main_v28 (F := Ideal) x0 (ix3 b c l) = Cert.Spec.x2 (val_main_v0 (F := Ideal) x0) b l := by
  rw [val_main_v28_apply, val_main_v25_apply, idx28_25, val_main_v21_apply, val_main_cst_1_apply, zero_word, zero_add]
  unfold Cert.Spec.x2
  simp only [idx21, val_main_v20_apply, Ideal.mulf_def]

/-- %24 at (b,c,l): the inner product of the cluster's mean with the pixel's features. -/
theorem xm_at (b : Fin 8) (c : Fin 24) (l : Fin 147456) :
    val_main_v24 (F := Ideal) x0 x1 x2 (ix3 b c l)
      = Cert.Spec.xm (val_main_v19 (F := Ideal) x0 x1 x2) (val_main_v0 (F := Ideal) x0) b c l := by
  rw [val_main_v24_apply]
  unfold Cert.Spec.xm
  simp only [lidx24, ridx24]

/-- %31 at (b,c,l): the mean's squared norm, whatever the pixel. -/
theorem m2_at (b : Fin 8) (c : Fin 24) (l : Fin 147456) :
    val_main_v31 (F := Ideal) x0 x1 x2 (ix3 b c l) = val_main_v23 (F := Ideal) x0 x1 x2 (ix2 b c) := by
  rw [val_main_v31_apply, val_main_v30_apply, idx31_30]

/-! ## The scalar broadcasts of the chain -/

theorem v26_at (i : S8x24x147456.Idx) : val_main_v26 (F := Ideal) i = FloatOps.ofBits (F := Ideal) .f32 0x40000000#32 := by
  rw [val_main_v26_apply, val_main_cst_3_apply]
theorem v33_at (i : S8x24x147456.Idx) : val_main_v33 (F := Ideal) i = FloatOps.ofBits (F := Ideal) .f32 0x00000000#32 := by
  rw [val_main_v33_apply, val_main_cst_4_apply]
theorem v35_at (i : S8x24x147456.Idx) : val_main_v35 (F := Ideal) i = FloatOps.ofBits (F := Ideal) .f32 0x00000000#32 := by
  rw [val_main_v35_apply, val_main_cst_5_apply]
theorem one_at (i : S8x24x147456.Idx) : val_main_call0_v1 (F := Ideal) i = FloatOps.ofBits (F := Ideal) .f32 0x3F800000#32 := by
  rw [val_main_call0_v1_apply, val_main_call0_v0_apply, val_main_cst_6_apply]
theorem v41_at (i : S8x24x147456.Idx) : val_main_v41 (F := Ideal) i = FloatOps.ofBits (F := Ideal) .f32 0x3F000000#32 := by
  rw [val_main_v41_apply, val_main_cst_7_apply]
theorem v43_at (i : S8x24x147456.Idx) : val_main_v43 (F := Ideal) i = FloatOps.ofBits (F := Ideal) .f32 0x00000000#32 := by
  rw [val_main_v43_apply, val_main_cst_8_apply]

/-! ## %46 is the hinge chain of its four operands -/

theorem v46_hinge (i : S8x24x147456.Idx) :
    val_main_v46 (F := Ideal) x0 x1 x2 i
      = Cert.Spec.hingeSq (val_main_v28 (F := Ideal) x0 i) (val_main_v24 (F := Ideal) x0 x1 x2 i)
          (val_main_v31 (F := Ideal) x0 x1 x2 i) (val_main_v1 (F := Ideal) x1 i) := by
  simp only [val_main_v46_apply, val_main_v45_apply, val_main_v44_apply, val_main_v42_apply, val_main_v40_apply,
    val_main_v39_apply, val_main_v38_apply, val_main_v37_apply, val_main_v36_apply, val_main_v34_apply,
    val_main_v32_apply, val_main_v29_apply, val_main_v27_apply,
    v26_at, v33_at, v35_at, one_at, v41_at, v43_at]
  unfold Cert.Spec.hingeSq
  rfl

theorem v46_at (b : Fin 8) (c : Fin 24) (l : Fin 147456) :
    val_main_v46 (F := Ideal) x0 x1 x2 (ix3 b c l)
      = Cert.Spec.hingeSq (Cert.Spec.x2 (val_main_v0 (F := Ideal) x0) b l)
          (Cert.Spec.xm (val_main_v19 (F := Ideal) x0 x1 x2) (val_main_v0 (F := Ideal) x0) b c l)
          (val_main_v23 (F := Ideal) x0 x1 x2 (ix2 b c)) (val_main_v1 (F := Ideal) x1 (ix3 b c l)) := by
  rw [v46_hinge, x2_at, xm_at, m2_at]

/-! ## %47 -/

theorem cvar_at (b : Fin 8) (c : Fin 24) :
    val_main_v47 (F := Ideal) x0 x1 x2 (ix2 b c)
      = Cert.Spec.cvar (val_main_v0 (F := Ideal) x0) (val_main_v1 (F := Ideal) x1) (val_main_v19 (F := Ideal) x0 x1 x2)
          (fun b k => (val_main_v23 (F := Ideal) x0 x1 x2 : S8x24.Idx → EReal) (ix2 b k)) b c := by
  rw [val_main_v47_apply, val_main_cst_9_apply, zero_word, zero_add]
  unfold Cert.Spec.cvar
  simp only [idx47, v46_at]

/-! ## The three statements -/

theorem ref_tsum (x1 : (⟨S8x24x384x384, .f32⟩ : BufTy).Contents (Elt Ideal)) :
    (val_main_v10 (F := Ideal) x1 : S8x24.Idx → EReal) = fun i => Cert.Spec.tsum (val_main_v1 (F := Ideal) x1) (i 0) (i 1) := by
  funext i
  obtain ⟨b, c, rfl⟩ : ∃ b c, i = ix2 b c := ⟨i 0, i 1, eq_ix2 i⟩
  exact tsum_at x1 b c

theorem ref_sums (x0 : (⟨S8x16x384x384, .f32⟩ : BufTy).Contents (Elt Ideal))
    (x1 : (⟨S8x24x384x384, .f32⟩ : BufTy).Contents (Elt Ideal)) :
    (val_main_v11 (F := Ideal) x0 x1 : S8x16x24.Idx → EReal)
      = fun i => Cert.Spec.sums (val_main_v0 (F := Ideal) x0) (val_main_v1 (F := Ideal) x1) (i 0) (i 1) (i 2) := by
  funext i
  obtain ⟨b, f, c, rfl⟩ : ∃ b f c, i = ix3 b f c := ⟨i 0, i 1, i 2, eq_ix3 i⟩
  exact sums_at x0 x1 b f c

theorem ref_cvar (x0 : (⟨S8x16x384x384, .f32⟩ : BufTy).Contents (Elt Ideal))
    (x1 : (⟨S8x24x384x384, .f32⟩ : BufTy).Contents (Elt Ideal))
    (x2 : (⟨S8, .i32⟩ : BufTy).Contents (Elt Ideal)) :
    (val_main_v47 (F := Ideal) x0 x1 x2 : S8x24.Idx → EReal)
      = fun i => Cert.Spec.cvar (val_main_v0 (F := Ideal) x0) (val_main_v1 (F := Ideal) x1) (val_main_v19 (F := Ideal) x0 x1 x2)
          (fun b k => (val_main_v23 (F := Ideal) x0 x1 x2 : S8x24.Idx → EReal) (ix2 b k)) (i 0) (i 1) := by
  funext i
  obtain ⟨b, c, rfl⟩ : ∃ b c, i = ix2 b c := ⟨i 0, i 1, eq_ix2 i⟩
  exact cvar_at x0 x1 x2 b c

end Cert.ReferenceIdeal.RefStages

end
-- ==== Proof.KernelRun.lean ====
/-
  The idealized kernel's run with its result NAMED.

  The program's @main is nine segments: a stretch of host operations, the first accumulation pass (a pipelined region),
  a stretch, the second pass, and five stretches. The buffer contents at each segment boundary are a fold from the launch
  memory (`Gen.W0` … `Gen.W9`). Every weakly fair execution terminates, nothing faulting, in a state whose unscoped
  buffers hold the last boundary's contents; so the result buffer ends at `Gen.W9 m ρ c` read at it, and the three
  argument arrays end as launched.
-/
import proofs.«119188_j64785286693017_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v108) = W9 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v108 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.RunValue

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.Region0.lean ====
/-
  Pass 1 of the two-pass kernel, read as values over the extended reals.

  For each sample b the pass walks the six tiles of 24576 pixels. At the first tile it clears the sample's two output
  blocks; at every tile it adds to them the tile's partial sums: to the [16, 24] block the products
  x[b,f,l] · t[b,c,l] summed over the tile's pixels (a matrix product of the feature tile and the mask tile, both
  contracted on the pixel axis, into a zero accumulator), and to the [1, 24] block the mask values t[b,c,l] summed over
  the tile's pixels. After the sixth tile the blocks hold the sums over all 147456 = 6 · 24576 pixels and are written
  back to row b of the two output arrays; the eight samples' blocks tile the arrays. So after the pass
      output 2 at (b, f, c) = Σ_l x[b,f,l] · t[b,c,l]        and        output 3 at (b, 0, c) = Σ_l t[b,c,l].
  Every sum is a finite sum in the commutative monoid of the extended reals, so neither the order nor the grouping
  matters, and no finiteness of the values is used.

  The steps: what each of the body's two cases leaves in the output blocks as a payload of the loaded blocks
  (`out_A2` … `out_B3`); the payloads entry by entry (`pay4_apply`, `pay5_apply`); the input blocks as entries of the
  input arrays (`iblk0_0_apply`, `iblk0_1_apply`); the accumulator's step from point to point (`acc2_step`,
  `acc3_step`) and its value after a sample's last tile (`acc2_last`, `acc3_last`); what the write-backs write
  (`flushed2_eq`, `flushed3_eq`), that they cover the arrays (`cover2`, `cover3`), and the arrays after the pass
  (`sums_final`, `tsum_final`).
-/
import proofs.«119188_j64785286693017_1_alg».proof.Proof.Gen.KernelIdeal.Frame
import proofs.«119188_j64785286693017_1_alg».proof.Proof.Spec
import Idealize.ShloMosaic.Lib.Pipeline.Value
import Idealize.ShloMosaic.Lib.ValueIdx
import Idealize.ShloMosaic.Lib.Tactic
import Idealize.ShloMosaic.Lib.ValueLayout
import proofs.«119188_j64785286693017_1_alg».proof.Proof.LibDotNT
import proofs.«119188_j64785286693017_1_alg».proof.Proof.LibLaneSum
import proofs.«119188_j64785286693017_1_alg».proof.Proof.LibBlockSums
import proofs.«119188_j64785286693017_1_alg».proof.Proof.LibAccTile

noncomputable section
open Idealize.ShloMosaic Idealize.ShloMosaic.TcCoe Idealize.SL.Sem Idealize.ShloMosaic.ValueIdx
open Idealize.ShloMosaic.Pipeline (Dat)
open scoped BigOperators

namespace Cert.KernelIdeal.Region0
open Cert.KernelIdeal Cert.KernelIdeal.Gen

variable {F : FTy → Type} [FloatOps F]

theorem hz3 : (![0, 0, 0] : Fin 3 → Nat) = fun _ => 0 := funext fun a => by fin_cases a <;> rfl

/-- Case B, output 2: the one covering store's payload over the loaded blocks and the running block. -/
theorem out_B2 (c : Dev nD) (i : grid0.Coords) (arg2 : Memref sig .tc .vmem S1x16x24576 .f32) (harg2 : arg2.IsWhole) (arg3 : Memref sig .tc .vmem S1x24x24576 .f32) (harg3 : arg3.IsWhole) (arg4 : Memref sig .tc .vmem S1x16x24 .f32) (harg4 : arg4.IsWhole) (arg5 : Memref sig .tc .vmem S1x1x24 .f32) (harg5 : arg5.IsWhole) (hc0 : ¬cond0_0 i)
    (x0 : Vec F S1x16x24576 .f32) (x1 : Vec F S1x24x24576 .f32) (xo2 : Vec F S1x16x24 .f32) (xo3 : Vec F S1x1x24 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  try sl_unfold_words
  rw [View.canon_unit_zero hz3]
  simp only [View.readAt_eq_ld, harg2.read_unread, harg3.read_unread, harg4.read_unread,
    View.ld_unit_zero (S := S1x16x24576) hz3, View.ld_unit_zero (S := S1x24x24576) hz3, View.ld_unit_zero (S := S1x16x24) hz3]

/-- Case B, output 3: the one covering store's payload over the loaded mask block and the running block. -/
theorem out_B3 (c : Dev nD) (i : grid0.Coords) (arg2 : Memref sig .tc .vmem S1x16x24576 .f32) (harg2 : arg2.IsWhole) (arg3 : Memref sig .tc .vmem S1x24x24576 .f32) (harg3 : arg3.IsWhole) (arg4 : Memref sig .tc .vmem S1x16x24 .f32) (harg4 : arg4.IsWhole) (arg5 : Memref sig .tc .vmem S1x1x24 .f32) (harg5 : arg5.IsWhole) (hc0 : ¬cond0_0 i)
    (x0 : Vec F S1x16x24576 .f32) (x1 : Vec F S1x24x24576 .f32) (xo2 : Vec F S1x16x24 .f32) (xo3 : Vec F S1x1x24 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  try sl_unfold_words
  rw [View.canon_unit_zero hz3]
  simp only [View.readAt_eq_ld, harg3.read_unread, harg5.read_unread,
    View.ld_unit_zero (S := S1x24x24576) hz3, View.ld_unit_zero (S := S1x1x24) hz3]

/-- Case A, output 2: the zero block is stored, read back, and the payload over it stored. -/
theorem out_A2 (c : Dev nD) (i : grid0.Coords) (arg2 : Memref sig .tc .vmem S1x16x24576 .f32) (harg2 : arg2.IsWhole) (arg3 : Memref sig .tc .vmem S1x24x24576 .f32) (harg3 : arg3.IsWhole) (arg4 : Memref sig .tc .vmem S1x16x24 .f32) (harg4 : arg4.IsWhole) (arg5 : Memref sig .tc .vmem S1x1x24 .f32) (harg5 : arg5.IsWhole) (hc0 : cond0_0 i)
    (x0 : Vec F S1x16x24576 .f32) (x1 : Vec F S1x24x24576 .f32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  try sl_unfold_words
  rw [View.canon_cons_unit_zero (S := S1x16x24) hz3, View.readCov_unit_zero (S := S1x16x24) _ hz3]
  simp only [View.readAt_eq_ld, harg2.read_unread, harg3.read_unread,
    View.ld_unit_zero (S := S1x16x24576) hz3, View.ld_unit_zero (S := S1x24x24576) hz3]

/-- Case A, output 3: the zero block is stored, read back, and the payload over it stored. -/
theorem out_A3 (c : Dev nD) (i : grid0.Coords) (arg2 : Memref sig .tc .vmem S1x16x24576 .f32) (harg2 : arg2.IsWhole) (arg3 : Memref sig .tc .vmem S1x24x24576 .f32) (harg3 : arg3.IsWhole) (arg4 : Memref sig .tc .vmem S1x16x24 .f32) (harg4 : arg4.IsWhole) (arg5 : Memref sig .tc .vmem S1x1x24 .f32) (harg5 : arg5.IsWhole) (hc0 : cond0_0 i)
    (x0 : Vec F S1x16x24576 .f32) (x1 : Vec F S1x24x24576 .f32) :
    out0_A_3 c i arg2 harg2 arg3 harg3 arg4 harg4 arg5 harg5 hc0 x0 x1 = k0_pay5 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  try sl_unfold_words
  rw [View.canon_cons_unit_zero (S := S1x1x24) hz3, View.readCov_unit_zero (S := S1x1x24) _ hz3]
  simp only [View.readAt_eq_ld, harg3.read_unread, View.ld_unit_zero (S := S1x24x24576) hz3]

/-! ## The payloads over the extended reals, entry by entry -/

/-- A `[1, 1, a]` block cast to `[a]` reads, at `i`, the block at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the vector at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- The block the first tile clears output 2 to is zero. -/
theorem pay1_apply (j : S1x16x24.Idx) : (k0_pay1 (F := Ideal) : S1x16x24.Idx → EReal) j = 0 :=
  Ideal.ofBits_zero_f32

/-- The block the first tile clears output 3 to is zero. -/
theorem pay2_apply (j : S1x1x24.Idx) : (k0_pay2 (F := Ideal) : S1x1x24.Idx → EReal) j = 0 :=
  Ideal.ofBits_zero_f32

/-- What a point stores into output 2, at feature `f` and cluster `k`: what the block held plus the tile's
    mask-weighted feature sum. -/
theorem pay4_apply (x0 : Vec Ideal S1x16x24576 .f32) (x1 : Vec Ideal S1x24x24576 .f32) (acc : Vec Ideal S1x16x24 .f32)
    (f : Fin 16) (k : Fin 24) :
    (k0_pay4 x0 x1 acc : S1x16x24.Idx → EReal) (ix3 (0 : Fin 1) f k)
      = (acc : S1x16x24.Idx → EReal) (ix3 (0 : Fin 1) f k)
        + ∑ l : Fin 24576, (x0 : S1x16x24576.Idx → EReal) (ix3 (0 : Fin 1) f l) * (x1 : S1x24x24576.Idx → EReal) (ix3 (0 : Fin 1) k l) := by
  unfold k0_pay4 k0_pay3
  refine (shapeCast_ab_1ab_apply _ _ (0 : Fin 1) f k).trans ?_
  rw [addf_apply]
  refine congrArg₂ (· + ·) (shapeCast_1ab_ab_apply _ _ f k) ?_
  refine (Cert.DotNT.matmul_zero_apply dot_S16x24576_S24x24576_S16x24_1_1_0_0_n_n rfl none _ _ f k).trans ?_
  refine Finset.sum_congr rfl fun l _ => ?_
  rw [truncf_apply, truncf_apply]
  exact congrArg₂ (· * ·) (shapeCast_1ab_ab_apply _ _ f l) (shapeCast_1ab_ab_apply _ _ k l)

/-- What a point stores into output 3, at cluster `k`: what the block held plus the tile's mask sum. -/
theorem pay5_apply (x1 : Vec Ideal S1x24x24576 .f32) (acc : Vec Ideal S1x1x24 .f32) (k : Fin 24) :
    (k0_pay5 x1 acc : S1x1x24.Idx → EReal) (ix3 (0 : Fin 1) (0 : Fin 1) k)
      = (acc : S1x1x24.Idx → EReal) (ix3 (0 : Fin 1) (0 : Fin 1) k)
        + ∑ l : Fin 24576, (x1 : S1x24x24576.Idx → EReal) (ix3 (0 : Fin 1) k l) := by
  unfold k0_pay5 k0_pay3
  refine (shapeCast_a_11a_apply _ _ (0 : Fin 1) (0 : Fin 1) k).trans ?_
  rw [addf_apply]
  refine congrArg₂ (· + ·) (shapeCast_11a_a_apply _ _ k) ?_
  refine (Cert.LaneSum.sum_last2 _ _ _ _ _ k).trans ?_
  refine Finset.sum_congr rfl fun l _ => ?_
  exact shapeCast_1ab_ab_apply _ _ k l

/-! ## The windows' index maps and blocks -/

/-- The printed index maps, decided over the grid: both inputs' block index is (sample, 0, tile); both outputs' is
    (sample, 0, 0), where point `t` is sample `t / 6`, tile `t % 6`. -/
theorem idx_facts : ∀ t : Fin cfg0.N,
    (win0_0.index t (0 : Fin 3) = t.val / 6 ∧ win0_0.index t (1 : Fin 3) = 0 ∧ win0_0.index t (2 : Fin 3) = t.val % 6)
    ∧ (win0_1.index t (0 : Fin 3) = t.val / 6 ∧ win0_1.index t (1 : Fin 3) = 0 ∧ win0_1.index t (2 : Fin 3) = t.val % 6)
    ∧ (win0_2.index t (0 : Fin 3) = t.val / 6 ∧ win0_2.index t (1 : Fin 3) = 0 ∧ win0_2.index t (2 : Fin 3) = 0)
    ∧ (win0_3.index t (0 : Fin 3) = t.val / 6 ∧ win0_3.index t (1 : Fin 3) = 0 ∧ win0_3.index t (2 : Fin 3) = 0) :=
  (by decide +kernel : ∀ t : Fin grid0.N, _)

/-- The feature block at point `t`, at feature `f` and pixel `l` of the tile: the feature array at sample `t / 6`,
    feature `f`, pixel `(t % 6) · 24576 + l`. -/
theorem iblk0_0_apply (V : (c : Dev nD) → (b : Ref sig .tc) → Buf (Elt Ideal) ((c : Thread nD τ).loc b)) (c : Dev nD)
    (t : Fin cfg0.N) (f : Fin 16) (l : Fin 24576) (K : S8x16x147456.Idx)
    (h0 : (K 0).val = t.val / 6) (h1 : (K 1).val = f.val) (h2 : (K 2).val = t.val % 6 * 24576 + l.val) :
    (iblk0 V c 0 t : S1x16x24576.Idx → EReal) (ix3 (0 : Fin 1) f l)
      = (V c (Pipeline.arrRef spec0 0) : S8x16x147456.Idx → EReal) K := by
  obtain ⟨⟨e0, e1, e2⟩, -⟩ := idx_facts t
  unfold iblk0
  rw [View.read_apply]
  show (V c (Pipeline.arrRef spec0 0) : S8x16x147456.Idx → EReal) _ = _
  refine congrArg _ (funext fun a => Fin.ext ?_)
  match a with
  | ⟨0, _⟩ => show win0_0.index t (0 : Fin 3) * 1 + 1 * 0 = (K 0).val; rw [e0, h0]; omega
  | ⟨1, _⟩ => show win0_0.index t (1 : Fin 3) * 16 + 1 * f.val = (K 1).val; rw [e1, h1]; omega
  | ⟨2, _⟩ => show win0_0.index t (2 : Fin 3) * 24576 + 1 * l.val = (K 2).val; rw [e2, h2]; omega

/-- The mask block at point `t`, at cluster `k` and pixel `l` of the tile: the mask array at sample `t / 6`,
    cluster `k`, pixel `(t % 6) · 24576 + l`. -/
theorem iblk0_1_apply (V : (c : Dev nD) → (b : Ref sig .tc) → Buf (Elt Ideal) ((c : Thread nD τ).loc b)) (c : Dev nD)
    (t : Fin cfg0.N) (k : Fin 24) (l : Fin 24576) (K : S8x24x147456.Idx)
    (h0 : (K 0).val = t.val / 6) (h1 : (K 1).val = k.val) (h2 : (K 2).val = t.val % 6 * 24576 + l.val) :
    (iblk0 V c 1 t : S1x24x24576.Idx → EReal) (ix3 (0 : Fin 1) k l)
      = (V c (Pipeline.arrRef spec0 1) : S8x24x147456.Idx → EReal) K := by
  obtain ⟨-, ⟨e0, e1, e2⟩, -⟩ := idx_facts t
  unfold iblk0
  rw [View.read_apply]
  show (V c (Pipeline.arrRef spec0 1) : S8x24x147456.Idx → EReal) _ = _
  refine congrArg _ (funext fun a => Fin.ext ?_)
  match a with
  | ⟨0, _⟩ => show win0_1.index t (0 : Fin 3) * 1 + 1 * 0 = (K 0).val; rw [e0, h0]; omega
  | ⟨1, _⟩ => show win0_1.index t (1 : Fin 3) * 24 + 1 * k.val = (K 1).val; rw [e1, h1]; omega
  | ⟨2, _⟩ => show win0_1.index t (2 : Fin 3) * 24576 + 1 * l.val = (K 2).val; rw [e2, h2]; omega

/-! ## The accumulation over one sample's six tiles -/

section Acc
variable (x : FVec Ideal Cert.Spec.SX .f32) (w : FVec Ideal Cert.Spec.ST .f32)

/-- Pixel `l` of tile `n % 6` of sample `n / 6`, as a pixel of the flattened image. -/
abbrev pix (n : ℕ) (l : Fin 24576) : Fin 147456 := ⟨n % 6 * 24576 + l.val, by have := l.isLt; have := Nat.mod_lt n (show 0 < 6 by decide); omega⟩

/-- The sample of point `n`. -/
abbrev smp (n : ℕ) : Fin 8 := ⟨n / 6 % 8, Nat.mod_lt _ (by decide)⟩

/-- Point `n`'s term of the feature sum: the tile's mask-weighted sum of feature `f` for cluster `k`. -/
def p2 (f : Fin 16) (k : Fin 24) (n : ℕ) : EReal :=
  ∑ l : Fin 24576, x (ix3 (smp n) f (pix n l)) * w (ix3 (smp n) k (pix n l))

/-- Point `n`'s term of the mass: the tile's mask sum for cluster `k`. -/
def p3 (k : Fin 24) (n : ℕ) : EReal :=
  ∑ l : Fin 24576, w (ix3 (smp n) k (pix n l))

end Acc

section Run
variable (V : (c : Dev nD) → (b : Ref sig .tc) → Buf (Elt Ideal) ((c : Thread nD τ).loc b)) (c : Dev nD)

/-- What output 2's block holds after point `n`, at feature `f` and cluster `k` (zero past the grid). -/
def acc2 (f : Fin 16) (k : Fin 24) (n : ℕ) : EReal :=
  if h : n < cfg0.N then ((outsAt0 V c n h).1 : S1x16x24.Idx → EReal) (ix3 (0 : Fin 1) f k) else 0

/-- What output 3's block holds after point `n`, at cluster `k` (zero past the grid). -/
def acc3 (k : Fin 24) (n : ℕ) : EReal :=
  if h : n < cfg0.N then ((outsAt0 V c n h).2 : S1x1x24.Idx → EReal) (ix3 (0 : Fin 1) (0 : Fin 1) k) else 0

theorem hN : cfg0.N = 48 := N_0

/-- The feature block at point `t`. -/
abbrev xb (t : Fin cfg0.N) : Vec Ideal S1x16x24576 .f32 := iblk0 V c 0 t
/-- The mask block at point `t`. -/
abbrev wb (t : Fin cfg0.N) : Vec Ideal S1x24x24576 .f32 := iblk0 V c 1 t

/-- The block of output 2 is cleared at a sample's first tile and receives each tile's term. -/
theorem acc2_step (f : Fin 16) (k : Fin 24) (n : ℕ) (hn : n < 48) :
    acc2 V c f k n = (if n % 6 = 0 then 0 else acc2 V c f k (n - 1))
      + p2 (V c (Pipeline.arrRef spec0 0)) (V c (Pipeline.arrRef spec0 1)) f k n := by
  have hn' : n < cfg0.N := by rw [hN]; exact hn
  have hx : ∀ l : Fin 24576, xb V c ⟨n, hn'⟩ (ix3 (0 : Fin 1) f l)
      = (V c (Pipeline.arrRef spec0 0) : S8x16x147456.Idx → EReal) (ix3 (smp n) f (pix n l)) := fun l =>
    iblk0_0_apply V c ⟨n, hn'⟩ f l _ (by show n / 6 % 8 = n / 6; omega) rfl rfl
  have hw : ∀ l : Fin 24576, wb V c ⟨n, hn'⟩ (ix3 (0 : Fin 1) k l)
      = (V c (Pipeline.arrRef spec0 1) : S8x24x147456.Idx → EReal) (ix3 (smp n) k (pix n l)) := fun l =>
    iblk0_1_apply V c ⟨n, hn'⟩ k l _ (by show n / 6 % 8 = n / 6; omega) rfl rfl
  have hp : (∑ l : Fin 24576, xb V c ⟨n, hn'⟩ (ix3 (0 : Fin 1) f l) * wb V c ⟨n, hn'⟩ (ix3 (0 : Fin 1) k l))
      = p2 (V c (Pipeline.arrRef spec0 0)) (V c (Pipeline.arrRef spec0 1)) f k n :=
    Finset.sum_congr rfl fun l _ => by rw [hx l, hw l]
  unfold acc2
  rw [dif_pos hn']
  by_cases h0 : n % 6 = 0
  · rw [if_pos h0, outsAt0_A V c ⟨n, hn'⟩ h0]
    dsimp only
    rw [out_A2, pay4_apply, pay1_apply, hp]
  · have hm : n - 1 < cfg0.N := Nat.lt_of_le_of_lt (Nat.sub_le _ _) hn'
    rw [if_neg h0, dif_pos hm, outsAt0_B V c ⟨n, hn'⟩ h0]
    dsimp only
    rw [out_B2, pay4_apply, hp]

end Run

section Run2
variable (V : (c : Dev nD) → (b : Ref sig .tc) → Buf (Elt Ideal) ((c : Thread nD τ).loc b)) (c : Dev nD)

/-- The block of output 3 is cleared at a sample's first tile and receives each tile's term. -/
theorem acc3_step (k : Fin 24) (n : ℕ) (hn : n < 48) :
    acc3 V c k n = (if n % 6 = 0 then 0 else acc3 V c k (n - 1)) + p3 (V c (Pipeline.arrRef spec0 1)) k n := by
  have hn' : n < cfg0.N := by rw [hN]; exact hn
  have hw : ∀ l : Fin 24576, wb V c ⟨n, hn'⟩ (ix3 (0 : Fin 1) k l)
      = (V c (Pipeline.arrRef spec0 1) : S8x24x147456.Idx → EReal) (ix3 (smp n) k (pix n l)) := fun l =>
    iblk0_1_apply V c ⟨n, hn'⟩ k l _ (by show n / 6 % 8 = n / 6; omega) rfl rfl
  have hp : (∑ l : Fin 24576, wb V c ⟨n, hn'⟩ (ix3 (0 : Fin 1) k l)) = p3 (V c (Pipeline.arrRef spec0 1)) k n :=
    Finset.sum_congr rfl fun l _ => hw l
  unfold acc3
  rw [dif_pos hn']
  by_cases h0 : n % 6 = 0
  · rw [if_pos h0, outsAt0_A V c ⟨n, hn'⟩ h0]
    dsimp only
    rw [out_A3, pay5_apply, pay2_apply, hp]
  · have hm : n - 1 < cfg0.N := Nat.lt_of_le_of_lt (Nat.sub_le _ _) hn'
    rw [if_neg h0, dif_pos hm, outsAt0_B V c ⟨n, hn'⟩ h0]
    dsimp only
    rw [out_B3, pay5_apply, hp]

end Run2

section Last
variable (x : FVec Ideal Cert.Spec.SX .f32) (w : FVec Ideal Cert.Spec.ST .f32)

/-- The six tiles' terms of sample `m` add up to the sample's feature sum over all pixels. -/
theorem sum_p2 (m : Fin 8) (f : Fin 16) (k : Fin 24) :
    ∑ s : Fin 6, p2 x w f k (m.val * 6 + s.val) = Cert.Spec.sums x w m f k := by
  unfold Cert.Spec.sums
  refine Eq.trans ?_ (Cert.BlockSums.sum_blocks 6 24576 (fun L : Fin (6 * 24576) => x (ix3 m f L) * w (ix3 m k L))).symm
  refine Finset.sum_congr rfl fun s _ => ?_
  unfold p2
  refine Finset.sum_congr rfl fun l _ => ?_
  have := m.isLt; have := s.isLt; have := l.isLt
  have e1 : smp (m.val * 6 + s.val) = m := Fin.ext (by show (m.val * 6 + s.val) / 6 % 8 = m.val; omega)
  have e2 : pix (m.val * 6 + s.val) l = ⟨s.val * 24576 + l.val, Cert.BlockSums.blk_lt s l⟩ :=
    Fin.ext (by show (m.val * 6 + s.val) % 6 * 24576 + l.val = s.val * 24576 + l.val; omega)
  rw [e1, e2]

/-- The six tiles' terms of sample `m` add up to the sample's mass over all pixels. -/
theorem sum_p3 (m : Fin 8) (k : Fin 24) :
    ∑ s : Fin 6, p3 w k (m.val * 6 + s.val) = Cert.Spec.tsum w m k := by
  unfold Cert.Spec.tsum
  refine Eq.trans ?_ (Cert.BlockSums.sum_blocks 6 24576 (fun L : Fin (6 * 24576) => w (ix3 m k L))).symm
  refine Finset.sum_congr rfl fun s _ => ?_
  unfold p3
  refine Finset.sum_congr rfl fun l _ => ?_
  have := m.isLt; have := s.isLt; have := l.isLt
  have e1 : smp (m.val * 6 + s.val) = m := Fin.ext (by show (m.val * 6 + s.val) / 6 % 8 = m.val; omega)
  have e2 : pix (m.val * 6 + s.val) l = ⟨s.val * 24576 + l.val, Cert.BlockSums.blk_lt s l⟩ :=
    Fin.ext (by show (m.val * 6 + s.val) % 6 * 24576 + l.val = s.val * 24576 + l.val; omega)
  rw [e1, e2]

end Last

section Final
variable (V : (c : Dev nD) → (b : Ref sig .tc) → Buf (Elt Ideal) ((c : Thread nD τ).loc b)) (c : Dev nD)

/-- After a sample's last tile, output 2's block holds the sample's feature sums. -/
theorem acc2_last (m : Fin 8) (f : Fin 16) (k : Fin 24) :
    acc2 V c f k (m.val * 6 + 5) = Cert.Spec.sums (V c (Pipeline.arrRef spec0 0)) (V c (Pipeline.arrRef spec0 1)) m f k := by
  have := m.isLt
  rw [Cert.BlockSums.acc_tile 6 (by decide) 48 (p2 (V c (Pipeline.arrRef spec0 0)) (V c (Pipeline.arrRef spec0 1)) f k)
    (acc2 V c f k) (acc2_step V c f k) m.val (by omega)]
  exact sum_p2 _ _ m f k

/-- After a sample's last tile, output 3's block holds the sample's masses. -/
theorem acc3_last (m : Fin 8) (k : Fin 24) :
    acc3 V c k (m.val * 6 + 5) = Cert.Spec.tsum (V c (Pipeline.arrRef spec0 1)) m k := by
  have := m.isLt
  rw [Cert.BlockSums.acc_tile 6 (by decide) 48 (p3 (V c (Pipeline.arrRef spec0 1)) k)
    (acc3 V c k) (acc3_step V c k) m.val (by omega)]
  exact sum_p3 _ m k

end Final

/-! ## The write-backs and the arrays after the region -/

/-- The feature sums depend on the values of their coordinates only. -/
theorem sums_congr (x : FVec Ideal Cert.Spec.SX .f32) (w : FVec Ideal Cert.Spec.ST .f32) {b b' : Fin 8} {f f' : Fin 16} {k k' : Fin 24}
    (hb : b.val = b'.val) (hf : f.val = f'.val) (hk : k.val = k'.val) : Cert.Spec.sums x w b f k = Cert.Spec.sums x w b' f' k' := by
  obtain rfl := Fin.ext hb; obtain rfl := Fin.ext hf; obtain rfl := Fin.ext hk; rfl

/-- The masses depend on the values of their coordinates only. -/
theorem tsum_congr (w : FVec Ideal Cert.Spec.ST .f32) {b b' : Fin 8} {k k' : Fin 24}
    (hb : b.val = b'.val) (hk : k.val = k'.val) : Cert.Spec.tsum w b k = Cert.Spec.tsum w b' k' := by
  obtain rfl := Fin.ext hb; obtain rfl := Fin.ext hk; rfl

section Arrays
variable (V : (c : Dev nD) → (b : Ref sig .tc) → Buf (Elt Ideal) ((c : Thread nD τ).loc b)) (c : Dev nD)

/-- The feature sums as contents of output array 2. -/
def G2 : S8x16x24.Idx → EReal :=
  fun i => Cert.Spec.sums (V c (Pipeline.arrRef spec0 0)) (V c (Pipeline.arrRef spec0 1)) (i 0) (i 1) (i 2)

/-- The masses as contents of output array 3. -/
def G3 : S8x1x24.Idx → EReal :=
  fun i => Cert.Spec.tsum (V c (Pipeline.arrRef spec0 1)) (i 0) (i 2)

/-- What a sample's last point writes back of output 2 is the sample's block of the feature sums. -/
theorem flushed2_eq (t : Fin cfg0.N) (hf : (cfg0.win 2).flush t = true) :
    (dat0 V c).flushed 2 t = ((cfg0.win 2).blk t).view.read (Elt Ideal) (G2 V c) := by
  have h5 : t.val % 6 = 5 := (flush0_2 t).mp hf
  have hN' : t.val < 48 := lt_of_lt_of_eq t.isLt hN
  obtain ⟨-, -, ⟨e0, e1, e2⟩, -⟩ := idx_facts t
  show (cfg0.win 2).cut (grid0.coords t) ((dat0 V c).after 2 t) = _
  rw [after0_2]
  funext j
  rw [View.read_apply, cast_eq]
  have hj0 : (j 0).val < 1 := (j 0).isLt
  have hj1 : (j 1).val < 16 := (j 1).isLt
  have hj2 : (j 2).val < 24 := (j 2).isLt
  have hm : t.val / 6 < 8 := by omega
  have lhs : (cfg0.win 2).cut (grid0.coords t) (outsAt0 V c t.val t.isLt).1 j
      = acc2 V c ⟨(j 1).val, hj1⟩ ⟨(j 2).val, hj2⟩ ((⟨t.val / 6, hm⟩ : Fin 8).val * 6 + 5) := by
    have ht : (⟨t.val / 6, hm⟩ : Fin 8).val * 6 + 5 = t.val := by show t.val / 6 * 6 + 5 = t.val; omega
    rw [ht]
    unfold acc2
    rw [dif_pos t.isLt]
    show ((outsAt0 V c t.val t.isLt).1 : S1x16x24.Idx → EReal) ((cfg0.win 2).xinj (grid0.coords t) j) = _
    refine congrArg _ (funext fun a => Fin.ext ?_)
    match a with
    | ⟨0, _⟩ => show (j 0).val = 0; omega
    | ⟨1, _⟩ => rfl
    | ⟨2, _⟩ => rfl
  rw [lhs, acc2_last]
  unfold G2
  refine sums_congr _ _ ?_ ?_ ?_
  · show t.val / 6 = win0_2.index t (0 : Fin 3) * 1 + 1 * (j 0).val; rw [e0]; omega
  · show (j 1).val = win0_2.index t (1 : Fin 3) * 16 + 1 * (j 1).val; rw [e1]; omega
  · show (j 2).val = win0_2.index t (2 : Fin 3) * 24 + 1 * (j 2).val; rw [e2]; omega

/-- An index of output array 2 is in point `t`'s block iff each coordinate is in the block's range on its axis. -/
theorem mem_blk2 (t : Fin cfg0.N) (i : S8x16x24.Idx) :
    i ∈ ((cfg0.win 2).blk t).view.set ↔ ∀ a : Fin 3, win0_2.index t a * S1x16x24.size a ≤ (i a).val ∧ (i a).val < win0_2.index t a * S1x16x24.size a + S1x16x24.size a := by
  show i ∈ ((View.whole main_v10_0).slice (win0_2.rect t)).set ↔ _
  rw [View.set_slice_whole, Rect.mem_set_unit]
  exact Iff.rfl

/-- Every index of output array 2 is in the block its sample's last point writes back. -/
theorem cover2 (i : S8x16x24.Idx) : ∃ t : Fin cfg0.N, (cfg0.win 2).flush t = true ∧ i ∈ ((cfg0.win 2).blk t).view.set := by
  have h0 : (i 0).val < 8 := (i 0).isLt
  have h1 : (i 1).val < 16 := (i 1).isLt
  have h2 : (i 2).val < 24 := (i 2).isLt
  have ht : (i 0).val * 6 + 5 < cfg0.N := by rw [hN]; omega
  refine ⟨⟨(i 0).val * 6 + 5, ht⟩, (flush0_2 _).mpr (by show ((i 0).val * 6 + 5) % 6 = 5; omega), ?_⟩
  obtain ⟨-, -, ⟨e0, e1, e2⟩, -⟩ := idx_facts ⟨(i 0).val * 6 + 5, ht⟩
  rw [mem_blk2]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 16 ≤ (i 1).val ∧ (i 1).val < win0_2.index _ (1 : Fin 3) * 16 + 16; rw [e1]; omega
  | ⟨2, _⟩ => show win0_2.index _ (2 : Fin 3) * 24 ≤ (i 2).val ∧ (i 2).val < win0_2.index _ (2 : Fin 3) * 24 + 24; rw [e2]; omega

end Arrays

section Arrays3
variable (V : (c : Dev nD) → (b : Ref sig .tc) → Buf (Elt Ideal) ((c : Thread nD τ).loc b)) (c : Dev nD)

/-- What a sample's last point writes back of output 3 is the sample's block of the masses. -/
theorem flushed3_eq (t : Fin cfg0.N) (hf : (cfg0.win 3).flush t = true) :
    (dat0 V c).flushed 3 t = ((cfg0.win 3).blk t).view.read (Elt Ideal) (G3 V c) := by
  have h5 : t.val % 6 = 5 := (flush0_3 t).mp hf
  have hN' : t.val < 48 := lt_of_lt_of_eq t.isLt hN
  obtain ⟨-, -, -, ⟨e0, e1, e2⟩⟩ := idx_facts t
  show (cfg0.win 3).cut (grid0.coords t) ((dat0 V c).after 3 t) = _
  rw [after0_3]
  funext j
  rw [View.read_apply, cast_eq]
  have hj0 : (j 0).val < 1 := (j 0).isLt
  have hj1 : (j 1).val < 1 := (j 1).isLt
  have hj2 : (j 2).val < 24 := (j 2).isLt
  have hm : t.val / 6 < 8 := by omega
  have lhs : (cfg0.win 3).cut (grid0.coords t) (outsAt0 V c t.val t.isLt).2 j
      = acc3 V c ⟨(j 2).val, hj2⟩ ((⟨t.val / 6, hm⟩ : Fin 8).val * 6 + 5) := by
    have ht : (⟨t.val / 6, hm⟩ : Fin 8).val * 6 + 5 = t.val := by show t.val / 6 * 6 + 5 = t.val; omega
    rw [ht]
    unfold acc3
    rw [dif_pos t.isLt]
    show ((outsAt0 V c t.val t.isLt).2 : S1x1x24.Idx → EReal) ((cfg0.win 3).xinj (grid0.coords t) j) = _
    refine congrArg _ (funext fun a => Fin.ext ?_)
    match a with
    | ⟨0, _⟩ => show (j 0).val = 0; omega
    | ⟨1, _⟩ => show (j 1).val = 0; omega
    | ⟨2, _⟩ => rfl
  rw [lhs, acc3_last]
  unfold G3
  refine tsum_congr _ ?_ ?_
  · show t.val / 6 = win0_3.index t (0 : Fin 3) * 1 + 1 * (j 0).val; rw [e0]; omega
  · show (j 2).val = win0_3.index t (2 : Fin 3) * 24 + 1 * (j 2).val; rw [e2]; omega

/-- An index of output array 3 is in point `t`'s block iff each coordinate is in the block's range on its axis. -/
theorem mem_blk3 (t : Fin cfg0.N) (i : S8x1x24.Idx) :
    i ∈ ((cfg0.win 3).blk t).view.set ↔ ∀ a : Fin 3, win0_3.index t a * S1x1x24.size a ≤ (i a).val ∧ (i a).val < win0_3.index t a * S1x1x24.size a + S1x1x24.size a := by
  show i ∈ ((View.whole main_v10_1).slice (win0_3.rect t)).set ↔ _
  rw [View.set_slice_whole, Rect.mem_set_unit]
  exact Iff.rfl

/-- Every index of output array 3 is in the block its sample's last point writes back. -/
theorem cover3 (i : S8x1x24.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 24 := (i 2).isLt
  have ht : (i 0).val * 6 + 5 < cfg0.N := by rw [hN]; omega
  refine ⟨⟨(i 0).val * 6 + 5, ht⟩, (flush0_3 _).mpr (by show ((i 0).val * 6 + 5) % 6 = 5; omega), ?_⟩
  obtain ⟨-, -, -, ⟨e0, e1, e2⟩⟩ := idx_facts ⟨(i 0).val * 6 + 5, ht⟩
  rw [mem_blk3]
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 24 ≤ (i 2).val ∧ (i 2).val < win0_3.index _ (2 : Fin 3) * 24 + 24; rw [e2]; omega

end Arrays3

theorem sums_final (V : (c : Dev nD) → (b : Ref sig .tc) → Buf (Elt Ideal) ((c : Thread nD τ).loc b)) (c : Dev nD) :
    ((dat0 (F := Ideal) V c).arrAt 2 cfg0.N : S8x16x24.Idx → EReal)
      = fun i => Cert.Spec.sums (V c (Pipeline.arrRef spec0 0)) (V c (Pipeline.arrRef spec0 1)) (i 0) (i 1) (i 2) :=
  (dat0 V c).arrAt_eq_of_cover 2 (G2 V c) (flushed2_eq V c) cover2

theorem tsum_final (V : (c : Dev nD) → (b : Ref sig .tc) → Buf (Elt Ideal) ((c : Thread nD τ).loc b)) (c : Dev nD) :
    ((dat0 (F := Ideal) V c).arrAt 3 cfg0.N : S8x1x24.Idx → EReal)
      = fun i => Cert.Spec.tsum (V c (Pipeline.arrRef spec0 1)) (i 0) (i 2) :=
  (dat0 V c).arrAt_eq_of_cover 3 (G3 V c) (flushed3_eq V c) cover3

end Cert.KernelIdeal.Region0
end
-- ==== Proof.LibDotTN.lean ====
/-
  A matrix product that contracts the FIRST axis of both operands — a [K, M] operand against a [K, N] operand,
  giving [M, N], no batch axis: the product of the left operand's transpose with the right operand, taken without
  forming the transpose — read at the entry (p, c) over the extended reals: the sum over k of the left operand at
  (k, p) times the right operand at (k, c). Stated for the on-chip product accumulated into a zero splat, for any
  dimension record that is this one.
-/
import Idealize.ShloMosaic.Lib.ValueIdx
import Idealize.ShloMosaic.PureOps.Ideal.Laws

noncomputable section

open scoped BigOperators

namespace Cert.DotTN

open Idealize.ShloMosaic Idealize.ShloMosaic.ValueIdx

/-- The dimension record: both operands contracted on axis 0, their axes 1 kept, left before right. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The contraction index has one axis, of extent `K`. -/
theorem contr_rank : (tn K M N).contr.rank = 1 := rfl
theorem contr_size : (tn K M N).contr.size ⟨0, by rw [contr_rank]; exact Nat.one_pos⟩ = K := rfl

/-- The one-coordinate contraction index with coordinate `k`. -/
abbrev cidx (k : Fin K) : (tn K M N).contr.Idx := (contrEquiv1 (tn K M N) K contr_rank contr_size).symm k

/-- The left operand is read at row `k`, column `p`. -/
theorem lhsIdx_eq (p : Fin M) (c : Fin N) (k : Fin K) :
    (tn K M N).lhsIdx (ix2 p c) (cidx k) = ix2 k p := by
  funext a
  apply Fin.ext
  match a with
  | ⟨0, _⟩ =>
    exact ((tn K M N).lhsIdx_val_of_single rfl (ix2 p c) (cidx k)).trans
      (contrEquiv1_symm_val (tn K M N) K contr_rank contr_size k)
  | ⟨1, _⟩ => rfl

/-- The right operand is read at row `k`, column `c`. -/
theorem rhsIdx_eq (p : Fin M) (c : Fin N) (k : Fin K) :
    (tn K M N).rhsIdx (ix2 p c) (cidx k) = ix2 k c := by
  funext a
  apply Fin.ext
  match a with
  | ⟨0, _⟩ =>
    exact ((tn K M N).rhsIdx_val_of_single rfl (ix2 p c) (cidx k)).trans
      (contrEquiv1_symm_val (tn K M N) K contr_rank contr_size k)
  | ⟨1, _⟩ => rfl

/-- The contraction sum, re-indexed over `Fin K`. -/
theorem sum_eq (l : (⟨2, ![K, M]⟩ : Shape).Idx → EReal) (r : (⟨2, ![K, N]⟩ : Shape).Idx → EReal) (p : Fin M) (c : Fin N) :
    (∑ q : (tn K M N).contr.Idx, l ((tn K M N).lhsIdx (ix2 p c) q) * r ((tn K M N).rhsIdx (ix2 p c) q))
      = ∑ k : Fin K, l (ix2 k p) * r (ix2 k c) := by
  rw [← Equiv.sum_comp (contrEquiv1 (tn K M N) K contr_rank contr_size).symm]
  refine Finset.sum_congr rfl fun k _ => ?_
  rw [lhsIdx_eq p c k, rhsIdx_eq p c k]

/-- The on-chip product accumulated into the zero splat, at entry `(p, c)`: that sum. -/
theorem matmul_zero_apply {φ₁ φ₂ : FTy} (d : DotDims ⟨2, ![K, M]⟩ ⟨2, ![K, N]⟩ ⟨2, ![M, N]⟩) (hd : d = tn K M N)
    (prec : Option ContractPrecision) (l : FVec Ideal ⟨2, ![K, M]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 k p) * r (ix2 k c) := by
  subst hd
  rw [Ideal.matmul_constant_zero_apply]
  exact sum_eq l r p c

end Cert.DotTN

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.Region1.lean ====
/-
  Region 1 (the second pass), read at the extended reals: after its 48 grid points — 8 samples by 6 pixel tiles — the
  output array [8, 1, 24] holds at (b, 0, c) the cluster's variance sum
      cvar[b, c] = Σ_l hingeSq (x2[b, l]) (xm[b, c, l]) (m2[b, c]) (t[b, c, l])
  over the sample's 147456 pixels, of the four input arrays as the region is entered.

  The steps. (1) What the body leaves in the output block in each of its two cases, as one function `step` of the
  point's input blocks and of the block's earlier contents (the zero block at a sample's first tile). (2) `step` at a
  cluster, index by index: the earlier entry plus the sum over the tile's 24576 pixels of the reference's pointwise
  term — the squared norms are a sum along the feature axis, the inner products a matrix product contracting the
  feature axis of both operands, the row and column broadcasts read their one row or column, and the two scalar
  spellings that differ (the root, and the one-bit comparison read as a number) are the same functions of an extended
  real. (3) Each input block is its array read at sample t / 6, and for the two streamed arrays at pixels
  (t % 6) · 24576 + j. (4) The block's entry after each point is an accumulator cleared at a sample's first tile, so after
  the sixth it is the sum of the six tiles' shares, which is the sum over all the sample's pixels. (5) The sample's last
  point writes that block back at (b, 0, ·); these blocks cover the array.
-/
import proofs.«119188_j64785286693017_1_alg».proof.Proof.Gen.KernelIdeal.Frame
import proofs.«119188_j64785286693017_1_alg».proof.Proof.Spec
import proofs.«119188_j64785286693017_1_alg».proof.Proof.LibDotTN
import proofs.«119188_j64785286693017_1_alg».proof.Proof.LibLaneSum
import proofs.«119188_j64785286693017_1_alg».proof.Proof.LibColumn
import proofs.«119188_j64785286693017_1_alg».proof.Proof.LibBlockSums
import proofs.«119188_j64785286693017_1_alg».proof.Proof.LibAccTile
import Idealize.ShloMosaic.Lib.Pipeline.Value
import Idealize.ShloMosaic.Lib.ValueIdx
import Idealize.ShloMosaic.Lib.ValueLayout
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.Region1
open Cert.KernelIdeal Cert.KernelIdeal.Gen

section Cases
variable {F : FTy → Type} [FloatOps F]

theorem hz3 : (![0, 0, 0] : Fin 3 → Nat) = fun _ => 0 := funext fun a => by fin_cases a <;> rfl

/-- What one point's body leaves in the output block, from the point's four input blocks and the block's earlier
    contents: the pointwise chain of the tile, summed along the pixels, added to the earlier contents. -/
def step (x0 : Vec F S1x16x24576 .f32) (x1 : Vec F S1x24x24576 .f32) (x2 : Vec F S1x16x24 .f32) (x3 : Vec F S1x1x24 .f32)
    (xo : Vec F S1x1x24 .f32) : Vec F S1x1x24 .f32 :=
  k1_pay1 (k1_pay3 x1) (k1_pay4 x0 x2 x3) xo

/-- The zero block the first tile's point stores before accumulating. -/
abbrev zero : Vec F S1x1x24 .f32 := broadcast S1x1x24 (Scalar.ofBits .f32 0x00000000#32)

set_option maxHeartbeats 400000 in
/-- At a later tile's point the body leaves the step of the block's earlier contents: its one covering store's
    payload, whose loads read the whole buffers. -/
theorem out_B (c : Dev nD) (i : grid1.Coords) (a2 : Memref sig .tc .vmem S1x16x24576 .f32) (h2 : a2.IsWhole)
    (a3 : Memref sig .tc .vmem S1x24x24576 .f32) (h3 : a3.IsWhole) (a4 : Memref sig .tc .vmem S1x16x24 .f32) (h4 : a4.IsWhole)
    (a5 : Memref sig .tc .vmem S1x1x24 .f32) (h5 : a5.IsWhole) (a6 : Memref sig .tc .vmem S1x1x24 .f32) (h6 : a6.IsWhole)
    (hc : ¬cond1_0 i) (x0 : Vec F S1x16x24576 .f32) (x1 : Vec F S1x24x24576 .f32) (x2 : Vec F S1x16x24 .f32)
    (x3 : Vec F S1x1x24 .f32) (xo : Vec F S1x1x24 .f32) :
    out1_B_4 c i a2 h2 a3 h3 a4 h4 a5 h5 a6 h6 hc x0 x1 x2 x3 xo = step x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  try sl_unfold_words
  rw [View.canon_unit_zero hz3]
  simp only [View.readAt_eq_ld, h2.read_unread, h3.read_unread, h4.read_unread, h5.read_unread, h6.read_unread,
    View.ld_unit_zero (S := S1x16x24576) hz3, View.ld_unit_zero (S := S1x24x24576) hz3,
    View.ld_unit_zero (S := S1x16x24) hz3, View.ld_unit_zero (S := S1x1x24) hz3]
  rfl

set_option maxHeartbeats 400000 in
/-- At a first tile's point the body stores the zero block, reads it back and leaves the step of the zero block. -/
theorem out_A (c : Dev nD) (i : grid1.Coords) (a2 : Memref sig .tc .vmem S1x16x24576 .f32) (h2 : a2.IsWhole)
    (a3 : Memref sig .tc .vmem S1x24x24576 .f32) (h3 : a3.IsWhole) (a4 : Memref sig .tc .vmem S1x16x24 .f32) (h4 : a4.IsWhole)
    (a5 : Memref sig .tc .vmem S1x1x24 .f32) (h5 : a5.IsWhole) (a6 : Memref sig .tc .vmem S1x1x24 .f32) (h6 : a6.IsWhole)
    (hc : cond1_0 i) (x0 : Vec F S1x16x24576 .f32) (x1 : Vec F S1x24x24576 .f32) (x2 : Vec F S1x16x24 .f32)
    (x3 : Vec F S1x1x24 .f32) :
    out1_A_4 c i a2 h2 a3 h3 a4 h4 a5 h5 a6 h6 hc x0 x1 x2 x3 = step x0 x1 x2 x3 zero := by
  unfold out1_A_4
  rw [View.read_writes_eq_canon _ _ _ (cover1_A_4 c i a2 h2 a3 h3 a4 h4 a5 h5 a6 h6 hc x0 x1 x2 x3)]
  unfold kernelRun1_A
  dsimp only
  try sl_unfold_words
  rw [View.canon_cons_unit_zero (S := S1x1x24) hz3, View.readCov_unit_zero (S := S1x1x24) _ hz3]
  simp only [View.readAt_eq_ld, h2.read_unread, h3.read_unread, h4.read_unread, h5.read_unread,
    View.ld_unit_zero (S := S1x16x24576) hz3, View.ld_unit_zero (S := S1x24x24576) hz3,
    View.ld_unit_zero (S := S1x16x24) hz3, View.ld_unit_zero (S := S1x1x24) hz3]
  rfl

end Cases

section Pointwise

/-- A `[1, 1, b]` array cast to `[b]` reads, at `k`, the operand at `(0, 0, k)`. -/
theorem cast_11b_b {α : Type} {b : ℕ} (x : (⟨3, ![1, 1, b]⟩ : Shape).Idx → α)
    (h : (⟨3, ![1, 1, b]⟩ : Shape).ShapeCasts ⟨1, ![b]⟩) (k : Fin b) :
    shapeCast ⟨1, ![b]⟩ x h (ix1 k) = x (ix3 (0 : Fin 1) (0 : Fin 1) k) :=
  shapeCast_apply x h _ _ (by
    rw [Shape.rowMajor_val_three, Shape.rowMajor_val_one]
    show (0 * 1 + 0) * b + k.val = k.val
    omega)

/-- A `[b]` array cast to `[1, 1, b]` reads, at `(u, v, k)`, the operand at `k`. -/
theorem cast_b_11b {α : Type} {b : ℕ} (x : (⟨1, ![b]⟩ : Shape).Idx → α)
    (h : (⟨1, ![b]⟩ : Shape).ShapeCasts ⟨3, ![1, 1, b]⟩) (u v : Fin 1) (k : Fin b) :
    shapeCast ⟨3, ![1, 1, b]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * b + k.val
    rw [hu, hv]; omega)

/-- Over the extended reals the signed reading of a one-bit word widened with zeros is its unsigned reading. -/
theorem sitofp_extui_bit (p : BitVec 1) :
    FloatOps.sitofp (F := Ideal) .f32 (p.setWidth 32) = FloatOps.uitofp (F := Ideal) .f32 p := by
  rcases BitVec.eq_zero_or_eq_one p with h | h <;> subst h
  · show (((BitVec.setWidth 32 0#1).toInt : ℝ) : EReal) = (((0#1 : BitVec 1).toNat : ℝ) : EReal)
    have e : (BitVec.setWidth 32 0#1).toInt = (((0#1 : BitVec 1).toNat : ℕ) : ℤ) := by decide
    rw [e, Int.cast_natCast]
  · show (((BitVec.setWidth 32 1#1).toInt : ℝ) : EReal) = (((1#1 : BitVec 1).toNat : ℝ) : EReal)
    have e : (BitVec.setWidth 32 1#1).toInt = (((1#1 : BitVec 1).toNat : ℕ) : ℤ) := by decide
    rw [e, Int.cast_natCast]

/-- The pointwise chain of one entry up to the distance less one half, from the pixel's squared norm `a`, its inner
    product with the mean `p` and the mean's squared norm `q`, in the kernel's scalar spellings. -/
def chainS (a p q : EReal) : EReal :=
  FloatOps.subf (F := Ideal) (φ := .f32)
    (FloatOps.mulf (F := Ideal) (φ := .f32)
      (FloatOps.sqrt (F := Ideal) (φ := .f32)
        (Scalar.select
          (FloatOps.cmpf (F := Ideal) (φ := .f32) .ogt
            (FloatOps.maximumf (F := Ideal) (φ := .f32)
              (FloatOps.addf (FloatOps.subf a (FloatOps.mulf (Scalar.ofBits (F := Ideal) .f32 0x40000000#32) p)) q)
              (Scalar.ofBits (F := Ideal) .f32 0x00000000#32))
            (Scalar.ofBits (F := Ideal) .f32 0x00000000#32))
          (FloatOps.maximumf (F := Ideal) (φ := .f32)
            (FloatOps.addf (FloatOps.subf a (FloatOps.mulf (Scalar.ofBits (F := Ideal) .f32 0x40000000#32) p)) q)
            (Scalar.ofBits (F := Ideal) .f32 0x00000000#32))
          (Scalar.ofBits (F := Ideal) .f32 0x3F800000#32)))
      (FloatOps.sitofp (F := Ideal) .f32
        ((FloatOps.cmpf (F := Ideal) (φ := .f32) .ogt
            (FloatOps.maximumf (F := Ideal) (φ := .f32)
              (FloatOps.addf (FloatOps.subf a (FloatOps.mulf (Scalar.ofBits (F := Ideal) .f32 0x40000000#32) p)) q)
              (Scalar.ofBits (F := Ideal) .f32 0x00000000#32))
            (Scalar.ofBits (F := Ideal) .f32 0x00000000#32)).setWidth 32)))
    (Scalar.ofBits (F := Ideal) .f32 0x3F000000#32)

/-- The hinge of the chain, squared and weighted, is the reference's pointwise term. -/
theorem term_eq (a p q w : EReal) :
    FloatOps.mulf (F := Ideal) (φ := .f32)
      (FloatOps.mulf (FloatOps.maximumf (F := Ideal) (φ := .f32) (chainS a p q) (Scalar.ofBits (F := Ideal) .f32 0x00000000#32))
        (FloatOps.maximumf (F := Ideal) (φ := .f32) (chainS a p q) (Scalar.ofBits (F := Ideal) .f32 0x00000000#32))) w
      = Cert.Spec.hingeSq a p q w := by
  unfold Cert.Spec.hingeSq chainS
  dsimp only
  rw [sitofp_extui_bit]
  rfl

set_option maxHeartbeats 400000 in
/-- The chain's tile value at cluster `k`, pixel `j` of the tile. -/
theorem pay4_apply (x0 : Vec Ideal S1x16x24576 .f32) (x2 : Vec Ideal S1x16x24 .f32) (x3 : Vec Ideal S1x1x24 .f32)
    (k : Fin 24) (j : Fin 24576) :
    k1_pay4 (F := Ideal) x0 x2 x3 (ix2 k j)
      = chainS (∑ f : Fin 16, x0 (ix3 (0 : Fin 1) f j) * x0 (ix3 (0 : Fin 1) f j))
          (∑ f : Fin 16, x2 (ix3 (0 : Fin 1) f k) * x0 (ix3 (0 : Fin 1) f j))
          (x3 (ix3 (0 : Fin 1) (0 : Fin 1) k)) := by
  have e1 : broadcastTo S24x24576 (shapeCast S1x24576 (multiReduction (F := Ideal) .add [0] S24576
        (mulf (shapeCast S16x24576 x0 shapeCasts_S1x16x24576_S16x24576) (shapeCast S16x24576 x0 shapeCasts_S1x16x24576_S16x24576))
        0x00000000#32 reduces_S16x24576_S24576 (.inl rfl) rfl) shapeCasts_S24576_S1x24576) broadcasts_S1x24576_S24x24576 (ix2 k j)
      = ∑ f : Fin 16, x0 (ix3 (0 : Fin 1) f j) * x0 (ix3 (0 : Fin 1) f j) := by
    rw [broadcastTo_1b_ab_apply, shapeCast_a_1a_apply]
    refine (Cert.LaneSum.sum_first2 (a := 16) (b := 24576) _ _ _ _ _ j).trans ?_
    refine Finset.sum_congr rfl fun f _ => ?_
    rw [mulf_apply, shapeCast_1ab_ab_apply]
  have e2 : matmul (F := Ideal) dot_S16x24_S16x24576_S24x24576_0_0_1_1_n_n none
        (truncf .bf16 (shapeCast S16x24 x2 shapeCasts_S1x16x24_S16x24) bitsLt_bf16_f32)
        (truncf .bf16 (shapeCast S16x24576 x0 shapeCasts_S1x16x24576_S16x24576) bitsLt_bf16_f32)
        (constant S24x24576 .f32 0x00000000#32) (ix2 k j)
      = ∑ f : Fin 16, x2 (ix3 (0 : Fin 1) f k) * x0 (ix3 (0 : Fin 1) f j) := by
    refine (Cert.DotTN.matmul_zero_apply (K := 16) (M := 24) (N := 24576)
      dot_S16x24_S16x24576_S24x24576_0_0_1_1_n_n rfl none _ _ k j).trans ?_
    refine Finset.sum_congr rfl fun f _ => ?_
    rw [truncf_apply, truncf_apply, shapeCast_1ab_ab_apply, shapeCast_1ab_ab_apply]
  have e3 : broadcastTo S24x24576 (shapeCast S24x1 (shapeCast S24 x3 shapeCasts_S1x1x24_S24) shapeCasts_S24_S24x1)
        broadcasts_S24x1_S24x24576 (ix2 k j) = x3 (ix3 (0 : Fin 1) (0 : Fin 1) k) := by
    rw [Cert.GraphConv.Column.broadcastTo_a1_ab_apply, Cert.GraphConv.Column.shapeCast_a_a1_apply, cast_11b_b]
  rw [← e1, ← e2, ← e3]
  rfl

/-- The mask tile at cluster `k`, pixel `j`. -/
theorem pay3_apply (x1 : Vec Ideal S1x24x24576 .f32) (k : Fin 24) (j : Fin 24576) :
    k1_pay3 (F := Ideal) x1 (ix2 k j) = x1 (ix3 (0 : Fin 1) k j) := by
  unfold k1_pay3
  exact shapeCast_1ab_ab_apply _ _ k j

set_option maxHeartbeats 400000 in
/-- One point's body at cluster `k`: the block's earlier entry plus the tile's sum of the reference's pointwise terms. -/
theorem step_apply (x0 : Vec Ideal S1x16x24576 .f32) (x1 : Vec Ideal S1x24x24576 .f32) (x2 : Vec Ideal S1x16x24 .f32)
    (x3 : Vec Ideal S1x1x24 .f32) (xo : Vec Ideal S1x1x24 .f32) (k : Fin 24) :
    step (F := Ideal) x0 x1 x2 x3 xo (ix3 (0 : Fin 1) (0 : Fin 1) k)
      = xo (ix3 (0 : Fin 1) (0 : Fin 1) k)
        + ∑ j : Fin 24576, Cert.Spec.hingeSq (∑ f : Fin 16, x0 (ix3 (0 : Fin 1) f j) * x0 (ix3 (0 : Fin 1) f j))
            (∑ f : Fin 16, x2 (ix3 (0 : Fin 1) f k) * x0 (ix3 (0 : Fin 1) f j))
            (x3 (ix3 (0 : Fin 1) (0 : Fin 1) k)) (x1 (ix3 (0 : Fin 1) k j)) := by
  unfold step k1_pay1
  dsimp only
  rw [cast_b_11b, addf_apply, cast_11b_b]
  refine congrArg (fun z : EReal => xo (ix3 (0 : Fin 1) (0 : Fin 1) k) + z) ?_
  refine (Cert.LaneSum.sum_last2 (a := 24) (b := 24576) _ _ _ _ _ k).trans ?_
  refine Finset.sum_congr rfl fun j _ => ?_
  show FloatOps.mulf (F := Ideal) (φ := .f32)
      (FloatOps.mulf (FloatOps.maximumf (F := Ideal) (φ := .f32) (k1_pay4 (F := Ideal) x0 x2 x3 (ix2 k j)) _)
        (FloatOps.maximumf (F := Ideal) (φ := .f32) (k1_pay4 (F := Ideal) x0 x2 x3 (ix2 k j)) _))
      (k1_pay3 (F := Ideal) x1 (ix2 k j)) = _
  rw [pay4_apply, pay3_apply]
  exact term_eq _ _ _ _

end Pointwise

section Tiles
open Cert.Spec

/-- The printed index maps, decided over the grid: every window's block index on axis 0 is the sample `t / 6`; the two
    streamed windows' block index on the pixel axis is the tile `t % 6`; every other block index is zero. -/
theorem idx_facts : ∀ t : Fin cfg1.N,
    (win1_0.index t (0 : Fin 3) = t.val / 6 ∧ win1_0.index t (1 : Fin 3) = 0 ∧ win1_0.index t (2 : Fin 3) = t.val % 6)
    ∧ (win1_1.index t (0 : Fin 3) = t.val / 6 ∧ win1_1.index t (1 : Fin 3) = 0 ∧ win1_1.index t (2 : Fin 3) = t.val % 6)
    ∧ (win1_2.index t (0 : Fin 3) = t.val / 6 ∧ win1_2.index t (1 : Fin 3) = 0 ∧ win1_2.index t (2 : Fin 3) = 0)
    ∧ (win1_3.index t (0 : Fin 3) = t.val / 6 ∧ win1_3.index t (1 : Fin 3) = 0 ∧ win1_3.index t (2 : Fin 3) = 0)
    ∧ (win1_4.index t (0 : Fin 3) = t.val / 6 ∧ win1_4.index t (1 : Fin 3) = 0 ∧ win1_4.index t (2 : Fin 3) = 0) :=
  (by decide +kernel : ∀ t : Fin grid1.N, _)

variable (V : (c : Dev nD) → (b : Ref sig .tc) → Buf (Elt Ideal) ((c : Thread nD τ).loc b)) (c : Dev nD)

/-- The features' block at point `t` reads the features at sample `t / 6`, pixel `(t % 6) · 24576 + j`. -/
theorem iblk_x (t : Fin cfg1.N) (f : Fin 16) (j : Fin 24576) (b : Fin 8) (l : Fin 147456)
    (hb : b.val = t.val / 6) (hl : l.val = t.val % 6 * 24576 + j.val) :
    (iblk1 V c 0 t : Vec Ideal S1x16x24576 .f32) (ix3 (0 : Fin 1) f j)
      = (V c (Pipeline.arrRef spec1 0) : S8x16x147456.Idx → EReal) (ix3 b f l) := by
  obtain ⟨⟨e0, e1, e2⟩, -⟩ := idx_facts t
  unfold iblk1
  rw [View.read_apply]
  show (V c (Pipeline.arrRef spec1 0) : S8x16x147456.Idx → EReal) _ = _
  congr 1
  funext a
  apply Fin.ext
  match a with
  | ⟨0, _⟩ => show win1_0.index t (0 : Fin 3) * 1 + 1 * 0 = b.val; rw [e0, hb]; omega
  | ⟨1, _⟩ => show win1_0.index t (1 : Fin 3) * 16 + 1 * f.val = f.val; rw [e1]; omega
  | ⟨2, _⟩ => show win1_0.index t (2 : Fin 3) * 24576 + 1 * j.val = l.val; rw [e2, hl]; omega

/-- The masks' block at point `t` reads the masks at sample `t / 6`, pixel `(t % 6) · 24576 + j`. -/
theorem iblk_t (t : Fin cfg1.N) (k : Fin 24) (j : Fin 24576) (b : Fin 8) (l : Fin 147456)
    (hb : b.val = t.val / 6) (hl : l.val = t.val % 6 * 24576 + j.val) :
    (iblk1 V c 1 t : Vec Ideal S1x24x24576 .f32) (ix3 (0 : Fin 1) k j)
      = (V c (Pipeline.arrRef spec1 1) : S8x24x147456.Idx → EReal) (ix3 b k l) := by
  obtain ⟨-, ⟨e0, e1, e2⟩, -⟩ := idx_facts t
  unfold iblk1
  rw [View.read_apply]
  show (V c (Pipeline.arrRef spec1 1) : S8x24x147456.Idx → EReal) _ = _
  congr 1
  funext a
  apply Fin.ext
  match a with
  | ⟨0, _⟩ => show win1_1.index t (0 : Fin 3) * 1 + 1 * 0 = b.val; rw [e0, hb]; omega
  | ⟨1, _⟩ => show win1_1.index t (1 : Fin 3) * 24 + 1 * k.val = k.val; rw [e1]; omega
  | ⟨2, _⟩ => show win1_1.index t (2 : Fin 3) * 24576 + 1 * j.val = l.val; rw [e2, hl]; omega

/-- The means' block at point `t` reads the means of sample `t / 6`. -/
theorem iblk_mu (t : Fin cfg1.N) (f : Fin 16) (k : Fin 24) (b : Fin 8) (hb : b.val = t.val / 6) :
    (iblk1 V c 2 t : Vec Ideal S1x16x24 .f32) (ix3 (0 : Fin 1) f k)
      = (V c (Pipeline.arrRef spec1 2) : S8x16x24.Idx → EReal) (ix3 b f k) := by
  obtain ⟨-, -, ⟨e0, e1, e2⟩, -⟩ := idx_facts t
  unfold iblk1
  rw [View.read_apply]
  show (V c (Pipeline.arrRef spec1 2) : S8x16x24.Idx → EReal) _ = _
  congr 1
  funext a
  apply Fin.ext
  match a with
  | ⟨0, _⟩ => show win1_2.index t (0 : Fin 3) * 1 + 1 * 0 = b.val; rw [e0, hb]; omega
  | ⟨1, _⟩ => show win1_2.index t (1 : Fin 3) * 16 + 1 * f.val = f.val; rw [e1]; omega
  | ⟨2, _⟩ => show win1_2.index t (2 : Fin 3) * 24 + 1 * k.val = k.val; rw [e2]; omega

/-- The squared norms' block at point `t` reads the squared norms of sample `t / 6`'s means. -/
theorem iblk_m2 (t : Fin cfg1.N) (k : Fin 24) (b : Fin 8) (hb : b.val = t.val / 6) :
    (iblk1 V c 3 t : Vec Ideal S1x1x24 .f32) (ix3 (0 : Fin 1) (0 : Fin 1) k)
      = (V c (Pipeline.arrRef spec1 3) : S8x1x24.Idx → EReal) (ix3 b (0 : Fin 1) k) := by
  obtain ⟨-, -, -, ⟨e0, e1, e2⟩, -⟩ := idx_facts t
  unfold iblk1
  rw [View.read_apply]
  show (V c (Pipeline.arrRef spec1 3) : S8x1x24.Idx → EReal) _ = _
  congr 1
  funext a
  apply Fin.ext
  match a with
  | ⟨0, _⟩ => show win1_3.index t (0 : Fin 3) * 1 + 1 * 0 = b.val; rw [e0, hb]; omega
  | ⟨1, _⟩ => show win1_3.index t (1 : Fin 3) * 1 + 1 * 0 = 0; rw [e1]
  | ⟨2, _⟩ => show win1_3.index t (2 : Fin 3) * 24 + 1 * k.val = k.val; rw [e2]; omega

/-- One tile's share of a cluster's variance sum: the reference's pointwise terms summed over the tile's pixels. -/
def tileSum (x : FVec Ideal SX .f32) (t : FVec Ideal ST .f32) (mu : FVec Ideal SM .f32) (m2 : Fin 8 → Fin 24 → EReal)
    (b : Fin 8) (k : Fin 24) (s : Fin 6) : EReal :=
  ∑ j : Fin 24576, hingeSq (x2 x b ⟨s.val * 24576 + j.val, Cert.BlockSums.blk_lt s j⟩)
    (xm mu x b k ⟨s.val * 24576 + j.val, Cert.BlockSums.blk_lt s j⟩) (m2 b k)
    (t (ix3 b k ⟨s.val * 24576 + j.val, Cert.BlockSums.blk_lt s j⟩))

/-- A cluster's variance sum is the sum of its six tiles' shares. -/
theorem cvar_split (x : FVec Ideal SX .f32) (t : FVec Ideal ST .f32) (mu : FVec Ideal SM .f32) (m2 : Fin 8 → Fin 24 → EReal)
    (b : Fin 8) (k : Fin 24) : cvar x t mu m2 b k = ∑ s : Fin 6, tileSum x t mu m2 b k s :=
  Cert.BlockSums.sum_blocks 6 24576 fun l => hingeSq (x2 x b l) (xm mu x b k l) (m2 b k) (t (ix3 b k l))

/-- The fourth input array as a table of squared norms by sample and cluster. -/
abbrev m2tab : Fin 8 → Fin 24 → EReal :=
  fun b k => (V c (Pipeline.arrRef spec1 3) : S8x1x24.Idx → EReal) (ix3 b 0 k)

set_option maxHeartbeats 400000 in
/-- One point's body over the point's blocks adds, at cluster `k`, the tile's share of the sample's variance sum. -/
theorem point_eq (t : Fin cfg1.N) (xo : Vec Ideal S1x1x24 .f32) (k : Fin 24) (b : Fin 8) (s : Fin 6)
    (hb : b.val = t.val / 6) (hs : s.val = t.val % 6) :
    step (F := Ideal) (iblk1 V c 0 t) (iblk1 V c 1 t) (iblk1 V c 2 t) (iblk1 V c 3 t) xo (ix3 (0 : Fin 1) (0 : Fin 1) k)
      = xo (ix3 (0 : Fin 1) (0 : Fin 1) k)
        + tileSum (V c (Pipeline.arrRef spec1 0)) (V c (Pipeline.arrRef spec1 1)) (V c (Pipeline.arrRef spec1 2)) (m2tab V c) b k s := by
  rw [step_apply]
  refine congrArg (fun z : EReal => xo (ix3 (0 : Fin 1) (0 : Fin 1) k) + z) ?_
  unfold tileSum
  refine Finset.sum_congr rfl fun j _ => ?_
  have hl : (⟨s.val * 24576 + j.val, Cert.BlockSums.blk_lt s j⟩ : Fin 147456).val = t.val % 6 * 24576 + j.val := by
    show s.val * 24576 + j.val = _; rw [hs]
  rw [iblk_t V c t k j b _ hb hl, iblk_m2 V c t k b hb]
  unfold x2 xm
  congr 1
  · refine Finset.sum_congr rfl fun f _ => ?_
    rw [iblk_x V c t f j b _ hb hl]
  · refine Finset.sum_congr rfl fun f _ => ?_
    rw [iblk_x V c t f j b _ hb hl, iblk_mu V c t f k b hb]

end Tiles

section Final
open Cert.Spec

variable (V : (c : Dev nD) → (b : Ref sig .tc) → Buf (Elt Ideal) ((c : Thread nD τ).loc b)) (c : Dev nD)

/-- A tile's share depends on the sample and the tile only through their numbers. -/
theorem tileSum_congr (x : FVec Ideal SX .f32) (t : FVec Ideal ST .f32) (mu : FVec Ideal SM .f32) (m2 : Fin 8 → Fin 24 → EReal)
    (k : Fin 24) {b b' : Fin 8} {s s' : Fin 6} (hb : b.val = b'.val) (hs : s.val = s'.val) :
    tileSum x t mu m2 b k s = tileSum x t mu m2 b' k s' := by
  obtain rfl : b = b' := Fin.ext hb
  obtain rfl : s = s' := Fin.ext hs
  rfl

/-- The share point `n` adds at cluster `k`: tile `n % 6` of sample `n / 6` (nothing past the grid). -/
def pt (k : Fin 24) (n : ℕ) : EReal :=
  if h : n < 48 then
    tileSum (V c (Pipeline.arrRef spec1 0)) (V c (Pipeline.arrRef spec1 1)) (V c (Pipeline.arrRef spec1 2)) (m2tab V c)
      ⟨n / 6, by omega⟩ k ⟨n % 6, Nat.mod_lt _ (by decide)⟩
  else 0

/-- What the output block holds at cluster `k` after point `n` (nothing past the grid). -/
def acc (k : Fin 24) (n : ℕ) : EReal :=
  if h : n < cfg1.N then (outsAt1 V c n h : S1x1x24.Idx → EReal) (ix3 (0 : Fin 1) (0 : Fin 1) k) else 0

set_option maxHeartbeats 400000 in
/-- The block is cleared at a sample's first tile and otherwise carried over, then the point's share is added. -/
theorem acc_rec (k : Fin 24) : ∀ n, n < 48 →
    acc V c k n = (if n % 6 = 0 then 0 else acc V c k (n - 1)) + pt V c k n := by
  intro n hn
  have hN : cfg1.N = 48 := N_1
  have h : n < cfg1.N := by rw [hN]; exact hn
  unfold acc pt
  rw [dif_pos h, dif_pos hn]
  by_cases h0 : n % 6 = 0
  · rw [if_pos h0, outsAt1_A V c ⟨n, h⟩ h0, out_A,
      point_eq V c ⟨n, h⟩ zero k ⟨n / 6, by omega⟩ ⟨n % 6, Nat.mod_lt _ (by decide)⟩ rfl rfl]
    show Ideal.ofBits .f32 0x00000000#32 + _ = 0 + _
    rw [Ideal.ofBits_zero_f32]
  · have h1 : n - 1 < cfg1.N := by omega
    rw [if_neg h0, dif_pos h1, outsAt1_B V c ⟨n, h⟩ h0, out_B,
      point_eq V c ⟨n, h⟩ _ k ⟨n / 6, by omega⟩ ⟨n % 6, Nat.mod_lt _ (by decide)⟩ rfl rfl]

/-- After a sample's last tile the block holds, at cluster `k`, the cluster's whole variance sum. -/
theorem acc_last (k : Fin 24) (b : Fin 8) :
    acc V c k (b.val * 6 + 5)
      = cvar (V c (Pipeline.arrRef spec1 0)) (V c (Pipeline.arrRef spec1 1)) (V c (Pipeline.arrRef spec1 2)) (m2tab V c) b k := by
  have hb : b.val < 8 := b.isLt
  rw [show b.val * 6 + 5 = b.val * 6 + (6 - 1) from rfl,
    Cert.BlockSums.acc_tile 6 (by decide) 48 (pt V c k) (acc V c k) (acc_rec V c k) b.val (by omega), cvar_split]
  refine Finset.sum_congr rfl fun s _ => ?_
  have hs : s.val < 6 := s.isLt
  unfold pt
  rw [dif_pos (by omega)]
  exact tileSum_congr _ _ _ _ k (by show (b.val * 6 + s.val) / 6 = b.val; omega) (by show (b.val * 6 + s.val) % 6 = s.val; omega)

/-- The array the region leaves: every cluster's variance sum, by sample and cluster. -/
def G : S8x1x24.Idx → EReal := fun i =>
  cvar (V c (Pipeline.arrRef spec1 0)) (V c (Pipeline.arrRef spec1 1)) (V c (Pipeline.arrRef spec1 2))
    (fun b k => (V c (Pipeline.arrRef spec1 3) : S8x1x24.Idx → EReal) (ix3 b 0 k)) (i 0) (i 2)

theorem G_apply (i : S8x1x24.Idx) (b : Fin 8) (k : Fin 24) (hb : (i 0).val = b.val) (hk : (i 2).val = k.val) :
    G V c i = cvar (V c (Pipeline.arrRef spec1 0)) (V c (Pipeline.arrRef spec1 1)) (V c (Pipeline.arrRef spec1 2)) (m2tab V c) b k := by
  have e0 : (i 0 : Fin 8) = b := Fin.ext hb
  have e2 : (i 2 : Fin 24) = k := Fin.ext hk
  unfold G
  show cvar _ _ _ _ (i 0 : Fin 8) (i 2 : Fin 24) = _
  rw [e0, e2]

set_option maxRecDepth 16384 in
set_option maxHeartbeats 400000 in
/-- What a sample's last point writes back is the sample's block of that array. -/
theorem flushed_eq (t : Fin cfg1.N) (hf : (cfg1.win 4).flush t = true) :
    (dat1 V c).flushed 4 t = ((cfg1.win 4).blk t).view.read (Elt Ideal) (G V c) := by
  have hN : cfg1.N = 48 := N_1
  have ht : t.val < 48 := lt_of_lt_of_eq t.isLt hN
  have h5 : t.val % 6 = 5 := (flush1_4 t).mp hf
  obtain ⟨-, -, -, -, ⟨e0, e1, e2⟩⟩ := idx_facts t
  show (cfg1.win 4).cut (grid1.coords t) ((dat1 V c).after 4 t) = _
  rw [after1_4]
  refine funext fun (j : S1x1x24.Idx) => ?_
  have hR : ∀ f : S8x1x24.Idx → EReal,
      ((cfg1.win 4).blk t).view.read (Elt Ideal) f j = f (((cfg1.win 4).blk t).view.emb j) := fun f => rfl
  rw [hR]
  have hL : (cfg1.win 4).cut (grid1.coords t) (outsAt1 V c t.val t.isLt) j
      = acc V c (j 2 : Fin 24) ((t.val / 6) * 6 + 5) := by
    have e : (t.val / 6) * 6 + 5 = t.val := by omega
    unfold acc
    rw [dif_pos (by rw [e]; exact t.isLt)]
    show (outsAt1 V c t.val t.isLt : S1x1x24.Idx → EReal) _ = (outsAt1 V c _ _ : S1x1x24.Idx → EReal) _
    congr 1
    · exact e.symm
    · funext a
      apply Fin.ext
      match a with
      | ⟨0, _⟩ => show (j 0).val = 0; have h0 : (j 0).val < 1 := (j 0).isLt; omega
      | ⟨1, _⟩ => show (j 1).val = 0; have h1 : (j 1).val < 1 := (j 1).isLt; omega
      | ⟨2, _⟩ => rfl
  have hb8 : t.val / 6 < 8 := by omega
  refine hL.trans ((acc_last V c (j 2 : Fin 24) ⟨t.val / 6, hb8⟩).trans ?_)
  refine (G_apply V c _ ⟨t.val / 6, hb8⟩ (j 2 : Fin 24) ?_ ?_).symm
  · show win1_4.index t (0 : Fin 3) * 1 + 1 * (j 0).val = t.val / 6
    have h0 : (j 0).val < 1 := (j 0).isLt
    rw [e0]; omega
  · show win1_4.index t (2 : Fin 3) * 24 + 1 * (j 2).val = (j 2).val
    rw [e2]; omega

end Final

section Whole
open Cert.Spec

variable (V : (c : Dev nD) → (b : Ref sig .tc) → Buf (Elt Ideal) ((c : Thread nD τ).loc b)) (c : Dev nD)

set_option maxHeartbeats 400000 in
/-- Every entry of the output array lies in the block its sample's last point writes back. -/
theorem covered (i : S8x1x24.Idx) :
    ∃ t : Fin cfg1.N, (cfg1.win 4).flush t = true ∧ i ∈ ((cfg1.win 4).blk t).view.set := by
  have hN : cfg1.N = 48 := N_1
  have h0 : (i 0).val < 8 := (i 0).isLt
  have h1 : (i 1).val < 1 := (i 1).isLt
  have h2 : (i 2).val < 24 := (i 2).isLt
  have hlt : (i 0).val * 6 + 5 < cfg1.N := by rw [hN]; omega
  refine ⟨⟨(i 0).val * 6 + 5, hlt⟩, (flush1_4 _).mpr (by show ((i 0).val * 6 + 5) % 6 = 5; omega), ?_⟩
  obtain ⟨-, -, -, -, ⟨e0, e1, e2⟩⟩ := idx_facts ⟨(i 0).val * 6 + 5, hlt⟩
  have e0' : win1_4.index ⟨(i 0).val * 6 + 5, hlt⟩ (0 : Fin 3) = (i 0).val := by
    rw [e0]; show ((i 0).val * 6 + 5) / 6 = (i 0).val; omega
  show i ∈ ((View.whole main_v23).slice (win1_4.rect ⟨(i 0).val * 6 + 5, hlt⟩)).set
  rw [View.set_slice_whole, Rect.mem_set_unit]
  intro a
  match a with
  | ⟨0, _⟩ =>
    show win1_4.index ⟨(i 0).val * 6 + 5, hlt⟩ (0 : Fin 3) * 1 ≤ (i 0).val
      ∧ (i 0).val < win1_4.index ⟨(i 0).val * 6 + 5, hlt⟩ (0 : Fin 3) * 1 + 1
    rw [e0']; omega
  | ⟨1, _⟩ =>
    show win1_4.index ⟨(i 0).val * 6 + 5, hlt⟩ (1 : Fin 3) * 1 ≤ (i 1).val
      ∧ (i 1).val < win1_4.index ⟨(i 0).val * 6 + 5, hlt⟩ (1 : Fin 3) * 1 + 1
    rw [e1]; omega
  | ⟨2, _⟩ =>
    show win1_4.index ⟨(i 0).val * 6 + 5, hlt⟩ (2 : Fin 3) * 24 ≤ (i 2).val
      ∧ (i 2).val < win1_4.index ⟨(i 0).val * 6 + 5, hlt⟩ (2 : Fin 3) * 24 + 24
    rw [e2]; omega

end Whole

/-- After the second pass the output array holds, at sample `b` and cluster `c`, the cluster's variance sum over the
    sample's pixels, of the region's four input arrays as entered. -/
theorem cvar_final (V : (c : Dev nD) → (b : Ref sig .tc) → Buf (Elt Ideal) ((c : Thread nD τ).loc b)) (c : Dev nD) :
    ((dat1 (F := Ideal) V c).arrAt 4 cfg1.N : S8x1x24.Idx → EReal)
      = fun i => Cert.Spec.cvar (V c (Pipeline.arrRef spec1 0)) (V c (Pipeline.arrRef spec1 1)) (V c (Pipeline.arrRef spec1 2))
          (fun b k => (V c (Pipeline.arrRef spec1 3) : S8x1x24.Idx → EReal) (ix3 b 0 k)) (i 0) (i 2) :=
  (dat1 (F := Ideal) V c).arrAt_eq_of_cover 4 (G V c) (flushed_eq V c) covered

end Cert.KernelIdeal.Region1
end
-- ==== Proof.HostBridge.lean ====
/-
  The host side of the idealized kernel, read against the reference's stages.

  The kernel's program interleaves host operations with its two accumulation passes; the buffer contents at the
  boundaries are `Gen.W1` (before the first pass), `Gen.W2` (after it), `Gen.W3` (before the second pass), `Gen.W4`
  (after it) and `Gen.W9` (at the end). The reference computes the same quantities by the same host operations in the
  same order, except that where the reference takes a whole sum over the pixels (the clusters' masses, their feature sums,
  their variance sums) the kernel takes what a pass leaves. Given that each pass leaves that sum (`SumFacts`), every
  buffer the later operations read holds the reference's stage of the same arguments, and so does the result.
-/
import proofs.«119188_j64785286693017_1_alg».proof.Proof.Gen.KernelIdeal.Frame
import proofs.«119188_j64785286693017_1_alg».proof.Proof.RefReadP
import proofs.«119188_j64785286693017_1_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelIdeal.Bridge

open Cert.KernelIdeal Cert.KernelIdeal.Gen Cert.ReferenceIdeal.ReadP

/-- The two programs' arguments, as the reference's stages take them. -/
abbrev X0 := (⟨S8x16x384x384, .f32⟩ : BufTy).Contents (Elt Ideal)
abbrev X1 := (⟨S8x24x384x384, .f32⟩ : BufTy).Contents (Elt Ideal)
abbrev X2 := (⟨S8, .i32⟩ : BufTy).Contents (Elt Ideal)

/-- What the two passes leave, and what the reference's three sums over the pixels are: the clusters' feature sums,
    their masses and their variance sums (Spec.lean), on both sides. -/
structure SumFacts : Prop where
  k_sums : ∀ (V : (c : Dev nD) → (b : Ref sig .tc) → Buf (Elt Ideal) ((c : Thread nD τ).loc b)) (c : Dev nD),
    ((dat0 (F := Ideal) V c).arrAt 2 cfg0.N : S8x16x24.Idx → EReal)
      = fun i => Cert.Spec.sums (V c (Pipeline.arrRef spec0 0)) (V c (Pipeline.arrRef spec0 1)) (i 0) (i 1) (i 2)
  k_tsum : ∀ (V : (c : Dev nD) → (b : Ref sig .tc) → Buf (Elt Ideal) ((c : Thread nD τ).loc b)) (c : Dev nD),
    ((dat0 (F := Ideal) V c).arrAt 3 cfg0.N : S8x1x24.Idx → EReal)
      = fun i => Cert.Spec.tsum (V c (Pipeline.arrRef spec0 1)) (i 0) (i 2)
  k_cvar : ∀ (V : (c : Dev nD) → (b : Ref sig .tc) → Buf (Elt Ideal) ((c : Thread nD τ).loc b)) (c : Dev nD),
    ((dat1 (F := Ideal) V c).arrAt 4 cfg1.N : S8x1x24.Idx → EReal)
      = fun i => Cert.Spec.cvar (V c (Pipeline.arrRef spec1 0)) (V c (Pipeline.arrRef spec1 1)) (V c (Pipeline.arrRef spec1 2))
          (fun b k => (V c (Pipeline.arrRef spec1 3) : S8x1x24.Idx → EReal) (ix3 b 0 k)) (i 0) (i 2)
  r_tsum : ∀ (x1 : X1), (val_main_v10 (F := Ideal) x1 : S8x24.Idx → EReal)
      = fun i => Cert.Spec.tsum (val_main_v1 (F := Ideal) x1) (i 0) (i 1)
  r_sums : ∀ (x0 : X0) (x1 : X1), (val_main_v11 (F := Ideal) x0 x1 : S8x16x24.Idx → EReal)
      = fun i => Cert.Spec.sums (val_main_v0 (F := Ideal) x0) (val_main_v1 (F := Ideal) x1) (i 0) (i 1) (i 2)
  r_cvar : ∀ (x0 : X0) (x1 : X1) (x2 : X2), (val_main_v47 (F := Ideal) x0 x1 x2 : S8x24.Idx → EReal)
      = fun i => Cert.Spec.cvar (val_main_v0 (F := Ideal) x0) (val_main_v1 (F := Ideal) x1) (val_main_v19 (F := Ideal) x0 x1 x2)
          (fun b k => (val_main_v23 (F := Ideal) x0 x1 x2 : S8x24.Idx → EReal) (ix2 b k)) (i 0) (i 1)

variable (m : (ℓ : Loc nD τ sig) → Buf (Elt Ideal) ℓ) (ρ : Dev nD → PrngReg) (c : Dev nD)

/-- The launch contents of the three arguments. -/
abbrev a0 : X0 := m ((c.tc : Thread nD τ).loc main_arg0)
abbrev a1 : X1 := m ((c.tc : Thread nD τ).loc main_arg1)
abbrev a2 : X2 := m ((c.tc : Thread nD τ).loc main_arg2)

/-- Unfolds a stretch of host operations at a buffer in one simp pass, like the library's `after_results_simp`, but
    leaves a reshape's own result unopened (its result carries a transport along the equality of the two element types;
    it is read by a lemma); a reshape's result at any other buffer is what was there. -/
macro "host_results" : tactic =>
  `(tactic| (simp (disch := decide) only [StableHlo.after_cons, StableHlo.after_nil,
      StableHlo.nullary_result', StableHlo.unary_result', StableHlo.binary_result', StableHlo.ternary_result',
      StableHlo.nullary_result_ne', StableHlo.unary_result_ne', StableHlo.binary_result_ne', StableHlo.ternary_result_ne',
      StableHlo.reshape_result_ne']))

/-! ## Before the first pass: the flattened arguments, the cluster count as a float, the validity mask -/

theorem W1_v0 : W1 m ρ c (Proc.devRef .tc main_v0) = val_main_v0 (F := Ideal) (a0 m c) := by
  show StableHlo.after hostOps0 (W0 m ρ c) (Proc.devRef .tc main_v0) = _
  after_results; rfl
theorem W1_v1 : W1 m ρ c (Proc.devRef .tc main_v1) = val_main_v1 (F := Ideal) (a1 m c) := by
  show StableHlo.after hostOps0 (W0 m ρ c) (Proc.devRef .tc main_v1) = _
  after_results; rfl
theorem W1_v2 : W1 m ρ c (Proc.devRef .tc main_v2) = val_main_v2 (F := Ideal) (a2 m c) := by
  show StableHlo.after hostOps0 (W0 m ρ c) (Proc.devRef .tc main_v2) = _
  after_results; rfl
theorem W1_v9 : W1 m ρ c (Proc.devRef .tc main_v9) = val_main_v9 (F := Ideal) (a2 m c) := by
  show StableHlo.after hostOps0 (W0 m ρ c) (Proc.devRef .tc main_v9) = _
  after_results; rfl

/-! ## After the first pass: its inputs as entered, its two outputs the feature sums and the masses -/

theorem W2_v0 : W2 m ρ c (Proc.devRef .tc main_v0) = val_main_v0 (F := Ideal) (a0 m c) :=
  (W2_arr m ρ c 0).trans (((dat0 (V1 m ρ) c).arrAt_in 0 rfl _).trans ((A_eq0 (V1 m ρ) c 0).trans (W1_v0 m ρ c)))
theorem W2_v1 : W2 m ρ c (Proc.devRef .tc main_v1) = val_main_v1 (F := Ideal) (a1 m c) :=
  (W2_arr m ρ c 1).trans (((dat0 (V1 m ρ) c).arrAt_in 1 rfl _).trans ((A_eq0 (V1 m ρ) c 1).trans (W1_v1 m ρ c)))
theorem W2_v2 : W2 m ρ c (Proc.devRef .tc main_v2) = val_main_v2 (F := Ideal) (a2 m c) :=
  (W2_of_ne m ρ c main_v2 (by decide)).trans (W1_v2 m ρ c)
theorem W2_v9 : W2 m ρ c (Proc.devRef .tc main_v9) = val_main_v9 (F := Ideal) (a2 m c) :=
  (W2_of_ne m ρ c main_v9 (by decide)).trans (W1_v9 m ρ c)

/-- The first output array holds the reference's feature sums. -/
theorem W2_sums (hf : SumFacts) :
    W2 m ρ c (Proc.devRef .tc main_v10_0) = val_main_v11 (F := Ideal) (a0 m c) (a1 m c) :=
  ((W2_arr m ρ c 2).trans (hf.k_sums (V1 m ρ) c)).trans
    ((congrArg₂ (fun (x : Cert.Spec.SX.Idx → EReal) (t : Cert.Spec.ST.Idx → EReal) =>
        (fun i => Cert.Spec.sums x t (i 0) (i 1) (i 2) : S8x16x24.Idx → EReal)) (W1_v0 m ρ c) (W1_v1 m ρ c)).trans
      (hf.r_sums (a0 m c) (a1 m c)).symm)

/-- The second output array, kept with a unit axis, holds the reference's masses. -/
theorem W2_tsum (hf : SumFacts) :
    (W2 m ρ c (Proc.devRef .tc main_v10_1) : S8x1x24.Idx → EReal)
      = fun i => val_main_v10 (F := Ideal) (a1 m c) (ix2 (i 0) (i 2)) :=
  ((W2_arr m ρ c 3).trans (hf.k_tsum (V1 m ρ) c)).trans (funext fun i =>
    (congrArg (fun (t : Cert.Spec.ST.Idx → EReal) => Cert.Spec.tsum t (i 0) (i 2)) (W1_v1 m ρ c)).trans
      (congrFun (hf.r_tsum (a1 m c)) (ix2 (i 0) (i 2))).symm)

/-! ## Before the second pass: the masses without their unit axis, the means, their squared norms -/

/-- The masses [8,1,24] read without the unit axis are the reference's masses [8,24]. -/
theorem reshape_tsum (hf : SumFacts) :
    (StableHlo.reshape main_v10_1 main_v11 rfl shapeCasts_S8x1x24_S8x24 : HloOp τ sig (Elt Ideal)).result (W2 m ρ c) (Proc.devRef .tc main_v11)
      = val_main_v10 (F := Ideal) (a1 m c) := by
  rw [StableHlo.reshape_result]
  funext i
  show shapeCast main_v11.ty.shape (W2 m ρ c (Proc.devRef .tc main_v10_1)) shapeCasts_S8x1x24_S8x24 i = _
  rw [W2_tsum m ρ c hf]
  refine (shapeCast_apply _ shapeCasts_S8x1x24_S8x24 i (ix3 (i 0) 0 (i 1)) ?_).trans (congrArg (val_main_v10 (F := Ideal) (a1 m c)) (eq_ix2 i).symm)
  rw [Shape.rowMajor_val_three, Shape.rowMajor_val_two]
  show ((i 0).val * 1 + 0) * 24 + (i 1).val = (i 0).val * 24 + (i 1).val
  omega

theorem W3_v0 : W3 m ρ c (Proc.devRef .tc main_v0) = val_main_v0 (F := Ideal) (a0 m c) := by
  show StableHlo.after hostOps1 (W2 m ρ c) (Proc.devRef .tc main_v0) = _
  after_results; exact W2_v0 m ρ c
theorem W3_v1 : W3 m ρ c (Proc.devRef .tc main_v1) = val_main_v1 (F := Ideal) (a1 m c) := by
  show StableHlo.after hostOps1 (W2 m ρ c) (Proc.devRef .tc main_v1) = _
  after_results; exact W2_v1 m ρ c
theorem W3_v2 : W3 m ρ c (Proc.devRef .tc main_v2) = val_main_v2 (F := Ideal) (a2 m c) := by
  show StableHlo.after hostOps1 (W2 m ρ c) (Proc.devRef .tc main_v2) = _
  after_results; exact W2_v2 m ρ c
theorem W3_v9 : W3 m ρ c (Proc.devRef .tc main_v9) = val_main_v9 (F := Ideal) (a2 m c) := by
  show StableHlo.after hostOps1 (W2 m ρ c) (Proc.devRef .tc main_v9) = _
  after_results; exact W2_v9 m ρ c
theorem W3_v11 (hf : SumFacts) : W3 m ρ c (Proc.devRef .tc main_v11) = val_main_v10 (F := Ideal) (a1 m c) := by
  show StableHlo.after hostOps1 (W2 m ρ c) (Proc.devRef .tc main_v11) = _
  host_results; exact reshape_tsum m ρ c hf
/-- The means. -/
theorem W3_v19 (hf : SumFacts) :
    W3 m ρ c (Proc.devRef .tc main_v19) = val_main_v19 (F := Ideal) (a0 m c) (a1 m c) (a2 m c) := by
  show StableHlo.after hostOps1 (W2 m ρ c) (Proc.devRef .tc main_v19) = _
  host_results
  rw [reshape_tsum m ρ c hf, W2_sums m ρ c hf, W2_v9 m ρ c]
  rfl
/-- The means' squared norms. -/
theorem W3_v21 (hf : SumFacts) :
    W3 m ρ c (Proc.devRef .tc main_v21) = val_main_v23 (F := Ideal) (a0 m c) (a1 m c) (a2 m c) := by
  show StableHlo.after hostOps1 (W2 m ρ c) (Proc.devRef .tc main_v21) = _
  host_results
  rw [reshape_tsum m ρ c hf, W2_sums m ρ c hf, W2_v9 m ρ c]
  rfl
/-- The squared norms with a unit axis, read at it. -/
theorem W3_v22 (hf : SumFacts) (b : Fin 8) (k : Fin 24) :
    (W3 m ρ c (Proc.devRef .tc main_v22) : S8x1x24.Idx → EReal) (ix3 b 0 k)
      = (val_main_v23 (F := Ideal) (a0 m c) (a1 m c) (a2 m c) : S8x24.Idx → EReal) (ix2 b k) := by
  have e : W3 m ρ c (Proc.devRef .tc main_v22)
      = broadcastInDim S8x1x24 ![0, 2] bcast_S8x24_S8x1x24_0_2 (W3 m ρ c (Proc.devRef .tc main_v21)) := by
    show StableHlo.after hostOps1 (W2 m ρ c) (Proc.devRef .tc main_v22)
      = broadcastInDim S8x1x24 ![0, 2] bcast_S8x24_S8x1x24_0_2 (StableHlo.after hostOps1 (W2 m ρ c) (Proc.devRef .tc main_v21))
    host_results
  rw [e, W3_v21 m ρ c hf]
  exact broadcastInDim_apply _ bcast_S8x24_S8x1x24_0_2 _ (ix3 b 0 k) (ix2 b k) (fun a => match a with
    | ⟨0, _⟩ => by show b.val = if (8 : Nat) = 1 then 0 else b.val; rw [if_neg (by decide)]
    | ⟨1, _⟩ => by show k.val = if (24 : Nat) = 1 then 0 else k.val; rw [if_neg (by decide)])

/-! ## After the second pass: its inputs as entered, its output the variance sums -/

theorem W4_v2 : W4 m ρ c (Proc.devRef .tc main_v2) = val_main_v2 (F := Ideal) (a2 m c) :=
  (W4_of_ne m ρ c main_v2 (by decide)).trans (W3_v2 m ρ c)
theorem W4_v9 : W4 m ρ c (Proc.devRef .tc main_v9) = val_main_v9 (F := Ideal) (a2 m c) :=
  (W4_of_ne m ρ c main_v9 (by decide)).trans (W3_v9 m ρ c)
theorem W4_v11 (hf : SumFacts) : W4 m ρ c (Proc.devRef .tc main_v11) = val_main_v10 (F := Ideal) (a1 m c) :=
  (W4_of_ne m ρ c main_v11 (by decide)).trans (W3_v11 m ρ c hf)
theorem W4_v21 (hf : SumFacts) :
    W4 m ρ c (Proc.devRef .tc main_v21) = val_main_v23 (F := Ideal) (a0 m c) (a1 m c) (a2 m c) :=
  (W4_of_ne m ρ c main_v21 (by decide)).trans (W3_v21 m ρ c hf)
theorem W4_v19 (hf : SumFacts) :
    W4 m ρ c (Proc.devRef .tc main_v19) = val_main_v19 (F := Ideal) (a0 m c) (a1 m c) (a2 m c) :=
  (W4_arr m ρ c 2).trans (((dat1 (V3 m ρ) c).arrAt_in 2 rfl _).trans ((A_eq1 (V3 m ρ) c 2).trans (W3_v19 m ρ c hf)))

/-- The variance sums depend on the four input arrays only through their contents. -/
theorem cvar_congr {x x' : Cert.Spec.SX.Idx → EReal} {t t' : Cert.Spec.ST.Idx → EReal} {mu mu' : Cert.Spec.SM.Idx → EReal}
    {q q' : Fin 8 → Fin 24 → EReal} (hx : x = x') (ht : t = t') (hmu : mu = mu') (hq : q = q') (b : Fin 8) (k : Fin 24) :
    Cert.Spec.cvar x t mu q b k = Cert.Spec.cvar x' t' mu' q' b k := by
  subst hx ht hmu hq; rfl

/-- The second pass's output array, kept with a unit axis, holds the reference's variance sums. -/
theorem W4_cvar (hf : SumFacts) :
    (W4 m ρ c (Proc.devRef .tc main_v23) : S8x1x24.Idx → EReal)
      = fun i => val_main_v47 (F := Ideal) (a0 m c) (a1 m c) (a2 m c) (ix2 (i 0) (i 2)) :=
  ((W4_arr m ρ c 4).trans (hf.k_cvar (V3 m ρ) c)).trans (funext fun i =>
    (cvar_congr (W3_v0 m ρ c) (W3_v1 m ρ c) (W3_v19 m ρ c hf)
      (funext fun b => funext fun k => W3_v22 m ρ c hf b k) (i 0) (i 2)).trans
      (congrFun (hf.r_cvar (a0 m c) (a1 m c) (a2 m c)) (ix2 (i 0) (i 2))).symm)

/-! ## The operations after the second pass, stretch by stretch: each buffer a later operation reads holds the
    reference's stage -/

/-- The variance sums [8,1,24] read without the unit axis are the reference's [8,24]. -/
theorem reshape_cvar (hf : SumFacts) :
    (StableHlo.reshape main_v23 main_v24 rfl shapeCasts_S8x1x24_S8x24 : HloOp τ sig (Elt Ideal)).result (W4 m ρ c) (Proc.devRef .tc main_v24)
      = val_main_v47 (F := Ideal) (a0 m c) (a1 m c) (a2 m c) := by
  rw [StableHlo.reshape_result]
  funext i
  show shapeCast main_v24.ty.shape (W4 m ρ c (Proc.devRef .tc main_v23)) shapeCasts_S8x1x24_S8x24 i = _
  rw [W4_cvar m ρ c hf]
  refine (shapeCast_apply _ shapeCasts_S8x1x24_S8x24 i (ix3 (i 0) 0 (i 1)) ?_).trans
    (congrArg (val_main_v47 (F := Ideal) (a0 m c) (a1 m c) (a2 m c)) (eq_ix2 i).symm)
  rw [Shape.rowMajor_val_three, Shape.rowMajor_val_two]
  show ((i 0).val * 1 + 0) * 24 + (i 1).val = (i 0).val * 24 + (i 1).val
  omega

theorem W5_v2 : W5 m ρ c (Proc.devRef .tc main_v2) = val_main_v2 (F := Ideal) (a2 m c) := by
  show StableHlo.after hostOps2 (W4 m ρ c) (Proc.devRef .tc main_v2) = _
  host_results; exact W4_v2 m ρ c
theorem W5_v9 : W5 m ρ c (Proc.devRef .tc main_v9) = val_main_v9 (F := Ideal) (a2 m c) := by
  show StableHlo.after hostOps2 (W4 m ρ c) (Proc.devRef .tc main_v9) = _
  host_results; exact W4_v9 m ρ c
theorem W5_v21 (hf : SumFacts) : W5 m ρ c (Proc.devRef .tc main_v21) = val_main_v23 (F := Ideal) (a0 m c) (a1 m c) (a2 m c) := by
  show StableHlo.after hostOps2 (W4 m ρ c) (Proc.devRef .tc main_v21) = _
  host_results; exact W4_v21 m ρ c hf

set_option maxHeartbeats 1000000 in
/-- The variance term. -/
theorem W5_v38 (hf : SumFacts) : W5 m ρ c (Proc.devRef .tc main_v38) = val_main_v61 (F := Ideal) (a0 m c) (a1 m c) (a2 m c) := by
  show StableHlo.after hostOps2 (W4 m ρ c) (Proc.devRef .tc main_v38) = _
  host_results
  rw [reshape_cvar m ρ c hf, W4_v11 m ρ c hf, W4_v9 m ρ c, W4_v2 m ρ c]
  rfl
set_option maxHeartbeats 1000000 in
/-- The pairwise squared distances of the means, clamped at zero. -/
theorem W5_v49 (hf : SumFacts) : W5 m ρ c (Proc.devRef .tc main_v49) = val_main_v72 (F := Ideal) (a0 m c) (a1 m c) (a2 m c) := by
  show StableHlo.after hostOps2 (W4 m ρ c) (Proc.devRef .tc main_v49) = _
  host_results
  rw [W4_v21 m ρ c hf, W4_v19 m ρ c hf]
  rfl
set_option maxHeartbeats 1000000 in
theorem W5_v51 (hf : SumFacts) : W5 m ρ c (Proc.devRef .tc main_v51) = val_main_v74 (F := Ideal) (a0 m c) (a1 m c) (a2 m c) := by
  show StableHlo.after hostOps2 (W4 m ρ c) (Proc.devRef .tc main_v51) = _
  host_results
  rw [W4_v21 m ρ c hf, W4_v19 m ρ c hf]
  rfl
set_option maxHeartbeats 1000000 in
theorem W5_cst_10 : W5 m ρ c (Proc.devRef .tc main_cst_10) = val_main_cst_19 (F := Ideal) := by
  show StableHlo.after hostOps2 (W4 m ρ c) (Proc.devRef .tc main_cst_10) = _
  host_results
  rfl

theorem W6_v2 : W6 m ρ c (Proc.devRef .tc main_v2) = val_main_v2 (F := Ideal) (a2 m c) := by
  have h := W5_v2 m ρ c
  show StableHlo.after hostOps2_1 (W5 m ρ c) (Proc.devRef .tc main_v2) = _
  generalize W5 m ρ c = W at h ⊢
  host_results; exact h
theorem W6_v9 : W6 m ρ c (Proc.devRef .tc main_v9) = val_main_v9 (F := Ideal) (a2 m c) := by
  have h := W5_v9 m ρ c
  show StableHlo.after hostOps2_1 (W5 m ρ c) (Proc.devRef .tc main_v9) = _
  generalize W5 m ρ c = W at h ⊢
  host_results; exact h
theorem W6_v21 (hf : SumFacts) :
    W6 m ρ c (Proc.devRef .tc main_v21) = val_main_v23 (F := Ideal) (a0 m c) (a1 m c) (a2 m c) := by
  have h := W5_v21 m ρ c hf
  show StableHlo.after hostOps2_1 (W5 m ρ c) (Proc.devRef .tc main_v21) = _
  generalize W5 m ρ c = W at h ⊢
  host_results; exact h
theorem W6_v38 (hf : SumFacts) :
    W6 m ρ c (Proc.devRef .tc main_v38) = val_main_v61 (F := Ideal) (a0 m c) (a1 m c) (a2 m c) := by
  have h := W5_v38 m ρ c hf
  show StableHlo.after hostOps2_1 (W5 m ρ c) (Proc.devRef .tc main_v38) = _
  generalize W5 m ρ c = W at h ⊢
  host_results; exact h
theorem W6_v51 (hf : SumFacts) :
    W6 m ρ c (Proc.devRef .tc main_v51) = val_main_v74 (F := Ideal) (a0 m c) (a1 m c) (a2 m c) := by
  have h := W5_v51 m ρ c hf
  show StableHlo.after hostOps2_1 (W5 m ρ c) (Proc.devRef .tc main_v51) = _
  generalize W5 m ρ c = W at h ⊢
  host_results; exact h
/-- The squared distances where positive, one elsewhere (the argument of the root). -/
theorem W6_v52 (hf : SumFacts) :
    W6 m ρ c (Proc.devRef .tc main_v52) = val_main_v75 (F := Ideal) (a0 m c) (a1 m c) (a2 m c) := by
  have h51 := W5_v51 m ρ c hf
  have h49 := W5_v49 m ρ c hf
  have h10 := W5_cst_10 m ρ c
  show StableHlo.after hostOps2_1 (W5 m ρ c) (Proc.devRef .tc main_v52) = _
  generalize W5 m ρ c = W at h51 h49 h10 ⊢
  host_results
  rw [h51, h49, h10]
  rfl

theorem W7_v2 : W7 m ρ c (Proc.devRef .tc main_v2) = val_main_v2 (F := Ideal) (a2 m c) := by
  have h := W6_v2 m ρ c
  show StableHlo.after hostOps2_2 (W6 m ρ c) (Proc.devRef .tc main_v2) = _
  generalize W6 m ρ c = W at h ⊢
  host_results; exact h
theorem W7_v9 : W7 m ρ c (Proc.devRef .tc main_v9) = val_main_v9 (F := Ideal) (a2 m c) := by
  have h := W6_v9 m ρ c
  show StableHlo.after hostOps2_2 (W6 m ρ c) (Proc.devRef .tc main_v9) = _
  generalize W6 m ρ c = W at h ⊢
  host_results; exact h
theorem W7_v21 (hf : SumFacts) :
    W7 m ρ c (Proc.devRef .tc main_v21) = val_main_v23 (F := Ideal) (a0 m c) (a1 m c) (a2 m c) := by
  have h := W6_v21 m ρ c hf
  show StableHlo.after hostOps2_2 (W6 m ρ c) (Proc.devRef .tc main_v21) = _
  generalize W6 m ρ c = W at h ⊢
  host_results; exact h
theorem W7_v38 (hf : SumFacts) :
    W7 m ρ c (Proc.devRef .tc main_v38) = val_main_v61 (F := Ideal) (a0 m c) (a1 m c) (a2 m c) := by
  have h := W6_v38 m ρ c hf
  show StableHlo.after hostOps2_2 (W6 m ρ c) (Proc.devRef .tc main_v38) = _
  generalize W6 m ρ c = W at h ⊢
  host_results; exact h
set_option maxHeartbeats 2000000 in
/-- The distance term. -/
theorem W7_v92 (hf : SumFacts) :
    W7 m ρ c (Proc.devRef .tc main_v92) = val_main_v115 (F := Ideal) (a0 m c) (a1 m c) (a2 m c) := by
  have h52 := W6_v52 m ρ c hf
  have h51 := W6_v51 m ρ c hf
  have h9 := W6_v9 m ρ c
  have h2 := W6_v2 m ρ c
  show StableHlo.after hostOps2_2 (W6 m ρ c) (Proc.devRef .tc main_v92) = _
  generalize W6 m ρ c = W at h52 h51 h9 h2 ⊢
  host_results
  rw [h52, h51, h9, h2]
  rfl
set_option maxHeartbeats 1000000 in
theorem W7_v94 (hf : SumFacts) :
    W7 m ρ c (Proc.devRef .tc main_v94) = val_main_v117 (F := Ideal) (a0 m c) (a1 m c) (a2 m c) := by
  have h21 := W6_v21 m ρ c hf
  show StableHlo.after hostOps2_2 (W6 m ρ c) (Proc.devRef .tc main_v94) = _
  generalize W6 m ρ c = W at h21 ⊢
  host_results
  rw [h21]
  rfl
set_option maxHeartbeats 1000000 in
theorem W7_cst_22 : W7 m ρ c (Proc.devRef .tc main_cst_22) = val_main_cst_31 (F := Ideal) := by
  show StableHlo.after hostOps2_2 (W6 m ρ c) (Proc.devRef .tc main_cst_22) = _
  generalize W6 m ρ c = W
  host_results
  rfl

theorem W8_v2 : W8 m ρ c (Proc.devRef .tc main_v2) = val_main_v2 (F := Ideal) (a2 m c) := by
  have h := W7_v2 m ρ c
  show StableHlo.after hostOps2_3 (W7 m ρ c) (Proc.devRef .tc main_v2) = _
  generalize W7 m ρ c = W at h ⊢
  host_results; exact h
theorem W8_v9 : W8 m ρ c (Proc.devRef .tc main_v9) = val_main_v9 (F := Ideal) (a2 m c) := by
  have h := W7_v9 m ρ c
  show StableHlo.after hostOps2_3 (W7 m ρ c) (Proc.devRef .tc main_v9) = _
  generalize W7 m ρ c = W at h ⊢
  host_results; exact h
theorem W8_v38 (hf : SumFacts) :
    W8 m ρ c (Proc.devRef .tc main_v38) = val_main_v61 (F := Ideal) (a0 m c) (a1 m c) (a2 m c) := by
  have h := W7_v38 m ρ c hf
  show StableHlo.after hostOps2_3 (W7 m ρ c) (Proc.devRef .tc main_v38) = _
  generalize W7 m ρ c = W at h ⊢
  host_results; exact h
theorem W8_v92 (hf : SumFacts) :
    W8 m ρ c (Proc.devRef .tc main_v92) = val_main_v115 (F := Ideal) (a0 m c) (a1 m c) (a2 m c) := by
  have h := W7_v92 m ρ c hf
  show StableHlo.after hostOps2_3 (W7 m ρ c) (Proc.devRef .tc main_v92) = _
  generalize W7 m ρ c = W at h ⊢
  host_results; exact h
theorem W8_v94 (hf : SumFacts) :
    W8 m ρ c (Proc.devRef .tc main_v94) = val_main_v117 (F := Ideal) (a0 m c) (a1 m c) (a2 m c) := by
  have h := W7_v94 m ρ c hf
  show StableHlo.after hostOps2_3 (W7 m ρ c) (Proc.devRef .tc main_v94) = _
  generalize W7 m ρ c = W at h ⊢
  host_results; exact h
/-- The means' squared norms where positive, one elsewhere (the argument of the root). -/
theorem W8_v95 (hf : SumFacts) :
    W8 m ρ c (Proc.devRef .tc main_v95) = val_main_v118 (F := Ideal) (a0 m c) (a1 m c) (a2 m c) := by
  have h94 := W7_v94 m ρ c hf
  have h21 := W7_v21 m ρ c hf
  have h22 := W7_cst_22 m ρ c
  show StableHlo.after hostOps2_3 (W7 m ρ c) (Proc.devRef .tc main_v95) = _
  generalize W7 m ρ c = W at h94 h21 h22 ⊢
  host_results
  rw [h94, h21, h22]
  rfl

set_option maxHeartbeats 1000000 in
/-- The result: the weighted sum of the variance, distance and regularization terms. -/
theorem W9_v108 (hf : SumFacts) :
    W9 m ρ c (Proc.devRef .tc main_v108) = val_main_v131 (F := Ideal) (a0 m c) (a1 m c) (a2 m c) := by
  have h95 := W8_v95 m ρ c hf
  have h94 := W8_v94 m ρ c hf
  have h9 := W8_v9 m ρ c
  have h2 := W8_v2 m ρ c
  have h38 := W8_v38 m ρ c hf
  have h92 := W8_v92 m ρ c hf
  show StableHlo.after hostOps2_4 (W8 m ρ c) (Proc.devRef .tc main_v108) = _
  generalize W8 m ρ c = W at h95 h94 h9 h2 h38 h92 ⊢
  host_results
  rw [h95, h94, h9, h2, h38, h92]
  rfl

end Cert.KernelIdeal.Bridge

end
-- ==== Proof.lean ====
/-
  The proof of `Cert.Claim`: the kernel and its idealization run and leave their arguments unchanged, the reference
  does, nothing was rewritten between the kernel and its idealization, and at the extended reals the idealized kernel and
  the idealized reference end with the same result.

  The kernel makes two passes over the pixels, each accumulating tile by tile: the clusters' feature sums and masses, then
  — from the means those give — the clusters' variance sums. The reference takes each of those sums whole. A finite sum
  in the commutative monoid of the extended reals does not depend on how it is split into tiles or in which order the tile
  sums are accumulated (Region0.lean, Region1.lean: what the passes leave; RefStages.lean: the reference's sums; both
  against Spec.lean). Every other operation — the means, their squared norms, the pairwise distances of the means, the
  three terms and their weighted sum — is the same host operation in both programs, applied to equal operands
  (HostBridge.lean), so the results are equal (no finiteness is used: the precondition is never opened).
-/
import proofs.«119188_j64785286693017_1_alg».proof.Defs
import proofs.«119188_j64785286693017_1_alg».proof.Proof.Gen.Kernel
import proofs.«119188_j64785286693017_1_alg».proof.Proof.Gen.Kernel.Skeleton
import proofs.«119188_j64785286693017_1_alg».proof.Proof.Gen.Kernel.Launch
import proofs.«119188_j64785286693017_1_alg».proof.Proof.Gen.Kernel.Points
import proofs.«119188_j64785286693017_1_alg».proof.Proof.Gen.Kernel.Frame
import proofs.«119188_j64785286693017_1_alg».proof.Proof.Gen.KernelIdeal
import proofs.«119188_j64785286693017_1_alg».proof.Proof.Gen.KernelIdeal.Skeleton
import proofs.«119188_j64785286693017_1_alg».proof.Proof.Gen.KernelIdeal.Launch
import proofs.«119188_j64785286693017_1_alg».proof.Proof.Gen.KernelIdeal.Points
import proofs.«119188_j64785286693017_1_alg».proof.Proof.Gen.KernelIdeal.Frame
import proofs.«119188_j64785286693017_1_alg».proof.Proof.Gen.ReferenceIdeal
import proofs.«119188_j64785286693017_1_alg».proof.Proof.Gen.Pre_finite_inputs
import proofs.«119188_j64785286693017_1_alg».proof.Proof.RefRunP
import proofs.«119188_j64785286693017_1_alg».proof.Proof.RefReadP
import proofs.«119188_j64785286693017_1_alg».proof.Proof.RefStages
import proofs.«119188_j64785286693017_1_alg».proof.Proof.KernelRun
import proofs.«119188_j64785286693017_1_alg».proof.Proof.Region0
import proofs.«119188_j64785286693017_1_alg».proof.Proof.Region1
import proofs.«119188_j64785286693017_1_alg».proof.Proof.HostBridge
import Idealize.ShloMosaic.Adequacy
import Idealize.ShloMosaic.Init

noncomputable section

namespace Cert.Proof

open Idealize.ShloMosaic Idealize.ShloMosaic.TcCoe Idealize.SL.Sem

/-- What the two passes leave and what the reference's three sums are: the same sums over the pixels. -/
theorem sumFacts : Cert.KernelIdeal.Bridge.SumFacts :=
  ⟨Cert.KernelIdeal.Region0.sums_final, Cert.KernelIdeal.Region0.tsum_final, Cert.KernelIdeal.Region1.cvar_final,
    Cert.ReferenceIdeal.RefStages.ref_tsum, Cert.ReferenceIdeal.RefStages.ref_sums, Cert.ReferenceIdeal.RefStages.ref_cvar⟩

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- At the extended reals the kernel's result buffer ends at the last boundary's contents read at it, the reference's at
    its last stage of arguments that agree; the two are equal (`Bridge.W9_v108`). -/
theorem algebraic : Cert.algebraic_KernelIdeal_ReferenceIdeal := by
  intro m ρ m' ρ' _ hagree
  refine ⟨fun c => Cert.KernelIdeal.Gen.W9 m ρ c (Proc.devRef .tc Cert.KernelIdeal.main_v108),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v131_eq, (hagree c).1, (hagree c).2.1, (hagree c).2.2]
  exact (Cert.KernelIdeal.Bridge.W9_v108 m ρ c sumFacts).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
